-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S16384x256 : Shape := ⟨2, ![16384, 256]⟩
abbrev S1024x256 : Shape := ⟨2, ![1024, 256]⟩
abbrev S1x256 : Shape := ⟨2, ![1, 256]⟩
abbrev S1x1024x256 : Shape := ⟨3, ![1, 1024, 256]⟩
abbrev S1x4096x256 : Shape := ⟨3, ![1, 4096, 256]⟩
abbrev S1024x1 : Shape := ⟨2, ![1024, 1]⟩
abbrev S1x512x256 : Shape := ⟨3, ![1, 512, 256]⟩
abbrev S512x256 : Shape := ⟨2, ![512, 256]⟩
abbrev S256x512 : Shape := ⟨2, ![256, 512]⟩
abbrev S1024x512 : Shape := ⟨2, ![1024, 512]⟩
abbrev S1024 : Shape := ⟨1, ![1024]⟩

abbrev nBuf : Space → Nat
  | .hbm => 18
  | .vmem => 25
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16384x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S16384x256, .bf16⟩
  | .hbm, ⟨12, _⟩ => ⟨S16384x256, .bf16⟩
  | .hbm, ⟨13, _⟩ => ⟨S16384x256, .bf16⟩
  | .hbm, ⟨14, _⟩ => ⟨S4x4096x256, .bf16⟩
  | .hbm, ⟨15, _⟩ => ⟨S4x4096x256, .bf16⟩
  | .hbm, ⟨16, _⟩ => ⟨S4x4096x256, .bf16⟩
  | .hbm, ⟨17, _⟩ => ⟨S4x4096x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x4096x256, .bf16⟩
  | .local _ .vmem, ⟨17, _⟩ => ⟨S1x4096x256, .bf16⟩
  | .local _ .vmem, ⟨18, _⟩ => ⟨S1x4096x256, .bf16⟩
  | .local _ .vmem, ⟨19, _⟩ => ⟨S1x4096x256, .bf16⟩
  | .local _ .vmem, ⟨20, _⟩ => ⟨S1x1024x256, .f32⟩
  | .local _ .vmem, ⟨21, _⟩ => ⟨S1x1024x256, .f32⟩
  | .local _ .vmem, ⟨22, _⟩ => ⟨S1024x1, .f32⟩
  | .local _ .vmem, ⟨23, _⟩ => ⟨S1024x1, .f32⟩
  | .local _ .vmem, ⟨24, _⟩ => ⟨S1024x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 4], ![false, false]⟩

@[reducible] def k1_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k1_mult1 (k1_t1 : Fin k1_t1_loop.trips) : BitVec 32 :=
  let c0_i32_19 : BitVec 32 := 0#32
  let c0_i32 : BitVec 32 := 0#32
  let c1_i32 : BitVec 32 := 1#32
  let arg9 : BitVec 32 := Scf.iv c0_i32 c1_i32 k1_t1
  let c1_i32_18 : BitVec 32 := 1#32
  let v22 : BitVec 32 := Scalar.muli arg9 c1_i32_18
  let v23 : BitVec 32 := Scalar.addi c0_i32_19 v22
  let c512_i32 : BitVec 32 := 512#32
  let v24 : BitVec 32 := Scalar.muli v23 c512_i32
  v24
def k1_off1 (k1_t1 : Fin k1_t1_loop.trips) : Fin 3 → Nat :=
  let c0_20 : Index := 0#32
  let c0_i32_19 : BitVec 32 := 0#32
  let c0_i32 : BitVec 32 := 0#32
  let c1_i32 : BitVec 32 := 1#32
  let arg9 : BitVec 32 := Scf.iv c0_i32 c1_i32 k1_t1
  let c1_i32_18 : BitVec 32 := 1#32
  let v22 : BitVec 32 := Scalar.muli arg9 c1_i32_18
  let v23 : BitVec 32 := Scalar.addi c0_i32_19 v22
  let c512_i32 : BitVec 32 := 512#32
  let v24 : BitVec 32 := Scalar.muli v23 c512_i32
  let v25 : BitVec 32 := v24
  let v26 : Index := Scalar.indexCast v25
  let c0_21 : Index := 0#32
  ![0, v26.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x4096x256_S16384x256 : S4x4096x256.ShapeCasts S16384x256
  transposes_S256x256_S256x256_1_0 : S256x256.Transposes [1, 0] S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  shapeCasts_S16384x256_S4x4096x256 : S16384x256.ShapeCasts S4x4096x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  h_S1x512x256 : 0 < S1x512x256.numel
  shapeCasts_S1x512x256_S512x256 : S1x512x256.ShapeCasts S512x256
  transposes_S512x256_p1_0_S256x512 : S512x256.Transposes [1, 0] S256x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x256 : S1024x1.Broadcasts S1024x256
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S16384x256.size a
  hwx0_7 : ∀ i : grid0.Coords, EltTy.bits .bf16 = 32 ∨ (Rect.block (s := S16384x256) S1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S16384x256.size a
  hwx0_8 : ∀ i : grid0.Coords, EltTy.bits .bf16 = 32 ∨ (Rect.block (s := S16384x256) S1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S16384x256.size a
  hwx0_9 : ∀ i : grid0.Coords, EltTy.bits .bf16 = 32 ∨ (Rect.block (s := S16384x256) S1024x256.size (cc0_transform_9 i) (hinb0_9 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S1x512x256.size a ≤ S1x4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .bf16 = 32 ∨ (Rect.block (s := S4x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S4x4096x256.size a
  hwx1_1 : ∀ i : grid1.Coords, EltTy.bits .bf16 = 32 ∨ (Rect.block (s := S4x4096x256) S1x4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x4096x256.size a
  hwx1_2 : ∀ i : grid1.Coords, EltTy.bits .bf16 = 32 ∨ (Rect.block (s := S4x4096x256) S1x4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S4x4096x256.size a
  hwx1_3 : ∀ i : grid1.Coords, EltTy.bits .f32 = 32 ∨ (Rect.block (s := S4x4096x256) S1x1024x256.size (cc1_transform_3 i) (hinb1_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4x4096x256, .f32⟩
  | .hbm, ⟨8, _⟩ => ⟨S1x1x256, .f32⟩
  | .hbm, ⟨9, _⟩ => ⟨S4x4096x256, .f32⟩
  | .hbm, ⟨10, _⟩ => ⟨S4x4096x256, .f32⟩
  | .hbm, ⟨11, _⟩ => ⟨S4x4096x256, .f32⟩
  | .hbm, ⟨12, _⟩ => ⟨S1x1x256, .f32⟩
  | .hbm, ⟨13, _⟩ => ⟨S4x4096x256, .f32⟩
  | .hbm, ⟨14, _⟩ => ⟨S4x4096x256, .f32⟩
  | .hbm, ⟨15, _⟩ => ⟨S4x4096x256, .f32⟩
  | .hbm, ⟨16, _⟩ => ⟨S1x1x256, .f32⟩
  | .hbm, ⟨17, _⟩ => ⟨S4x4096x256, .f32⟩
  | .hbm, ⟨18, _⟩ => ⟨S4x4096x256, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.RunNamed.lean ====
/-
  The idealized kernel's run with its result named.

  Every weakly fair execution of the program terminates without a fault; the result array ends at the contents the
  second region's write-backs leave in it (the fold `W4` of the buffer contents through the program's four segments, read
  at the result's buffer), and the seven argument arrays end as launched.  The statement only adds the result's buffer to
  the final read of the thread state; the run itself is the launch over the program's segments.
-/
import proofs.«159504_j10333691314194_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel from any memory with zero counters: the result buffer ends at `W4` read at it, the
    arguments as launched. -/
theorem run_named : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Named

end
-- ==== Proof.FlashState.lean ====
/-
  The attention kernel's body as a recursion on its running state.

  At one grid point the body first sets the running maximum to `-∞` and the two running totals to `0`, then meets the
  keys in chunks of 512 rows, each chunk replacing the state `(m, l, acc)` by a pure function of the chunk's key and
  value rows and of the state it finds, and finally stores `acc / l`.  `state` is that recursion on the number of chunks
  met; `out_eq` says the block the body leaves is the final quotient of the state after all the chunks.
-/
import proofs.«159504_j10333691314194_2_alg».proof.Proof.Gen.KernelIdeal.Frame

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.Sem

variable {F : FTy → Type} [FloatOps F]

/-- The whole-shape rectangle at zero offsets, stored LAST: reading the buffer back gives the stored value, whatever was
    stored before. -/
theorem read_writes_cons_unit_zero {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rwa [Rect.emb_whole_apply] at e

/-- Chunk `k` of a resident `[1, 4096, 256]` block: its rows `512 k … 512 k + 511`. -/
def chunk (x : Vec F S1x4096x256 .bf16) (k : Fin k1_t1_loop.trips) : Vec F S1x512x256 .bf16 :=
  View.ld x (Rect.unit (s := S1x4096x256) (k1_off1 k) S1x512x256.size (k1_off1_inb k))

/-- The running state `(m, l, acc)` after `n` chunks, from the query block `q` and the chunks of the key and value blocks. -/
def state (q : FVec F S1024x256 .bf16) (Kc Vc : Fin k1_t1_loop.trips → Vec F S1x512x256 .bf16) :
    ℕ → FVec F S1024x1 .f32 × FVec F S1024x1 .f32 × FVec F S1024x256 .f32
  | 0 => (k1_pay1, k1_pay2, k1_pay3)
  | n + 1 =>
    if h : n < k1_t1_loop.trips then
      (k1_pay6 (k1_pay9 q (Kc ⟨n, h⟩) (state q Kc Vc n).1),
       k1_pay12 q (Kc ⟨n, h⟩) (state q Kc Vc n).1 (state q Kc Vc n).2.1,
       k1_pay5 (k1_pay13 q (Kc ⟨n, h⟩) (Vc ⟨n, h⟩) (state q Kc Vc n).1 (state q Kc Vc n).2.2))
    else state q Kc Vc n

theorem state_succ (q : FVec F S1024x256 .bf16) (Kc Vc : Fin k1_t1_loop.trips → Vec F S1x512x256 .bf16)
    (k : Fin k1_t1_loop.trips) :
    state q Kc Vc (k.val + 1)
      = (k1_pay6 (k1_pay9 q (Kc k) (state q Kc Vc k.val).1),
         k1_pay12 q (Kc k) (state q Kc Vc k.val).1 (state q Kc Vc k.val).2.1,
         k1_pay5 (k1_pay13 q (Kc k) (Vc k) (state q Kc Vc k.val).1 (state q Kc Vc k.val).2.2)) := by
  rw [state]; exact dif_pos k.isLt

section Trip

variable (𝒱 : Variants) (bd : Option 𝒱.V) (c : Dev nD) (i : grid1.Coords) (arg2 : Memref sig .tc .vmem S1x1024x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole)
  (v12 : Vec F S1x1024x256 .bf16) (X3 : BufTy.Contents (Elt F) arg3.view.ty) (X4 : BufTy.Contents (Elt F) arg4.view.ty)

/-- What one trip stores, as the payloads of the contents it finds. -/
theorem tripL_eq (k : Fin k1_t1_loop.trips) (f6 : BufTy.Contents (Elt F) arg6.view.ty) (f7 : BufTy.Contents (Elt F) arg7.view.ty)
    (f8 : BufTy.Contents (Elt F) arg8.view.ty) :
    tripL_k1_t1 (F := F) 𝒱 c bd i arg2 harg2 arg3 harg3 arg4 harg4 arg5 harg5 arg6 harg6 arg7 harg7 arg8 harg8 v12 X3 X4 k f6 f7 f8
      = ([⟨Rect.unit (s := S1024x1) ![0, 0] S1024x1.size inb_S1024x1_S1024x1_0_0,
            k1_pay6 (k1_pay9 (k1_pay4 v12)
              (View.readAt (Elt F) arg3.view (Rect.unit (s := S1x4096x256) (k1_off1 k) S1x512x256.size (k1_off1_inb k)).toLoadRect X3)
              (View.readAt (Elt F) arg6.view (Rect.unit (s := S1024x1) ![0, 0] S1024x1.size inb_S1024x1_S1024x1_0_0).toLoadRect f6))⟩],
         [⟨Rect.unit (s := S1024x1) ![0, 0] S1024x1.size inb_S1024x1_S1024x1_0_0,
            k1_pay12 (k1_pay4 v12)
              (View.readAt (Elt F) arg3.view (Rect.unit (s := S1x4096x256) (k1_off1 k) S1x512x256.size (k1_off1_inb k)).toLoadRect X3)
              (View.readAt (Elt F) arg6.view (Rect.unit (s := S1024x1) ![0, 0] S1024x1.size inb_S1024x1_S1024x1_0_0).toLoadRect f6)
              (View.readAt (Elt F) arg7.view (Rect.unit (s := S1024x1) ![0, 0] S1024x1.size inb_S1024x1_S1024x1_0_0).toLoadRect f7)⟩],
         [⟨Rect.unit (s := S1024x256) ![0, 0] S1024x256.size inb_S1024x256_S1024x256_0_0,
            k1_pay5 (k1_pay13 (k1_pay4 v12)
              (View.readAt (Elt F) arg3.view (Rect.unit (s := S1x4096x256) (k1_off1 k) S1x512x256.size (k1_off1_inb k)).toLoadRect X3)
              (View.readAt (Elt F) arg4.view (Rect.unit (s := S1x4096x256) (k1_off1 k) S1x512x256.size (k1_off1_inb k)).toLoadRect X4)
              (View.readAt (Elt F) arg6.view (Rect.unit (s := S1024x1) ![0, 0] S1024x1.size inb_S1024x1_S1024x1_0_0).toLoadRect f6)
              (View.readAt (Elt F) arg8.view (Rect.unit (s := S1024x256) ![0, 0] S1024x256.size inb_S1024x256_S1024x256_0_0).toLoadRect f8))⟩]) := by
  unfold tripL_k1_t1 trip_k1_t1
  dsimp only
  sl_unfold_run_names
  rfl

end Trip

end Cert.KernelIdeal.Flash

end
-- ==== Proof.FlashRun.lean ====
/-
  The attention body's run, read back as the recursion on its running state.

  The three scratch buffers are written whole before the loop (`-∞`, `0`, `0`) and whole again by every trip, each
  trip's values being the chunk's pure functions of what the buffers held when the trip began.  So after `n` trips the
  buffers read the state after `n` chunks, and the output block is the final quotient of the state after all of them.
-/
import proofs.«159504_j10333691314194_2_alg».proof.Proof.FlashState
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → ℕ) = fun _ => 0 := funext fun a => by
  match a with
  | ⟨0, _⟩ => rfl
  | ⟨1, _⟩ => rfl

theorem hz3 : (![0, 0, 0] : Fin 3 → ℕ) = fun _ => 0 := funext fun a => by
  match a with
  | ⟨0, _⟩ => rfl
  | ⟨1, _⟩ => rfl
  | ⟨2, _⟩ => rfl

section Trips

variable (𝒱 : Variants) (bd : Option 𝒱.V) (c : Dev nD) (i : grid1.Coords) (arg2 : Memref sig .tc .vmem S1x1024x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole)
  (v12 : Vec F S1x1024x256 .bf16) (X3 : BufTy.Contents (Elt F) arg3.view.ty) (X4 : BufTy.Contents (Elt F) arg4.view.ty)
  (G6 : BufTy.Contents (Elt F) arg6.view.ty) (G7 : BufTy.Contents (Elt F) arg7.view.ty) (G8 : BufTy.Contents (Elt F) arg8.view.ty)

set_option maxHeartbeats 1000000 in
/-- From scratch buffers that read `-∞`, `0`, `0` at loop entry: after `n` trips they read the state after `n` chunks. -/
theorem pb_read (h6 : arg6.view.read (Elt F) G6 = k1_pay1) (h7 : arg7.view.read (Elt F) G7 = k1_pay2)
    (h8 : arg8.view.read (Elt F) G8 = k1_pay3) (n : ℕ) (hn : n ≤ k1_t1_loop.trips) :
    arg6.view.read (Elt F) (arg6.view.writes (Elt F) G6 (pb_k1_t1 (F := F) 𝒱 c bd i arg2 harg2 arg3 harg3 arg4 harg4 arg5 harg5 arg6 harg6 arg7 harg7 arg8 harg8 v12 X3 X4 G6 G7 G8 n).1) = (state (k1_pay4 v12) (fun k => View.readAt (Elt F) arg3.view (Rect.unit (s := S1x4096x256) (k1_off1 k) S1x512x256.size (k1_off1_inb k)).toLoadRect X3) (fun k => View.readAt (Elt F) arg4.view (Rect.unit (s := S1x4096x256) (k1_off1 k) S1x512x256.size (k1_off1_inb k)).toLoadRect X4) n).1
    ∧ arg7.view.read (Elt F) (arg7.view.writes (Elt F) G7 (pb_k1_t1 (F := F) 𝒱 c bd i arg2 harg2 arg3 harg3 arg4 harg4 arg5 harg5 arg6 harg6 arg7 harg7 arg8 harg8 v12 X3 X4 G6 G7 G8 n).2.1) = (state (k1_pay4 v12) (fun k => View.readAt (Elt F) arg3.view (Rect.unit (s := S1x4096x256) (k1_off1 k) S1x512x256.size (k1_off1_inb k)).toLoadRect X3) (fun k => View.readAt (Elt F) arg4.view (Rect.unit (s := S1x4096x256) (k1_off1 k) S1x512x256.size (k1_off1_inb k)).toLoadRect X4) n).2.1
    ∧ arg8.view.read (Elt F) (arg8.view.writes (Elt F) G8 (pb_k1_t1 (F := F) 𝒱 c bd i arg2 harg2 arg3 harg3 arg4 harg4 arg5 harg5 arg6 harg6 arg7 harg7 arg8 harg8 v12 X3 X4 G6 G7 G8 n).2.2) = (state (k1_pay4 v12) (fun k => View.readAt (Elt F) arg3.view (Rect.unit (s := S1x4096x256) (k1_off1 k) S1x512x256.size (k1_off1_inb k)).toLoadRect X3) (fun k => View.readAt (Elt F) arg4.view (Rect.unit (s := S1x4096x256) (k1_off1 k) S1x512x256.size (k1_off1_inb k)).toLoadRect X4) n).2.2 := by
  induction n with
  | zero =>
    rw [pb_k1_t1.eq_1]
    exact ⟨h6, h7, h8⟩
  | succ n ih =>
    have h : n < k1_t1_loop.trips := hn
    obtain ⟨i6, i7, i8⟩ := ih (Nat.le_of_lt h)
    have e : (pb_k1_t1 (F := F) 𝒱 c bd i arg2 harg2 arg3 harg3 arg4 harg4 arg5 harg5 arg6 harg6 arg7 harg7 arg8 harg8 v12 X3 X4 G6 G7 G8 (n + 1)) = _ := pb_k1_t1_succ (F := F) 𝒱 c bd i arg2 harg2 arg3 harg3 arg4 harg4 arg5 harg5 arg6 harg6 arg7 harg7 arg8 harg8 v12 X3 X4 G6 G7 G8 ⟨n, h⟩
    have es : (state (k1_pay4 v12) (fun k => View.readAt (Elt F) arg3.view (Rect.unit (s := S1x4096x256) (k1_off1 k) S1x512x256.size (k1_off1_inb k)).toLoadRect X3) (fun k => View.readAt (Elt F) arg4.view (Rect.unit (s := S1x4096x256) (k1_off1 k) S1x512x256.size (k1_off1_inb k)).toLoadRect X4) (n + 1)) = _ := state_succ (k1_pay4 v12) _ _ ⟨n, h⟩
    rw [e, es, tripL_eq]
    dsimp only
    refine ⟨?_, ?_, ?_⟩
    · rw [List.singleton_append, read_writes_cons_unit_zero arg6.view _ hz2]
      simp only [View.readAt_eq_ld, i6, View.ld_unit_zero (S := S1024x1) hz2]
    · rw [List.singleton_append, read_writes_cons_unit_zero arg7.view _ hz2]
      simp only [View.readAt_eq_ld, i6, i7, View.ld_unit_zero (S := S1024x1) hz2]
    · rw [List.singleton_append, read_writes_cons_unit_zero arg8.view _ hz2]
      simp only [View.readAt_eq_ld, i6, i8, View.ld_unit_zero (S := S1024x1) hz2, View.ld_unit_zero (S := S1024x256) hz2]

end Trips

section Out

variable (c : Dev nD) (i : grid1.Coords) (arg2 : Memref sig .tc .vmem S1x1024x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (x0 : Vec F S1x1024x256 .bf16) (x1 : Vec F S1x4096x256 .bf16) (x2 : Vec F S1x4096x256 .bf16)

set_option maxHeartbeats 1000000 in
/-- The output block the body leaves: `acc / l` of the state after all the chunks of the key and value blocks. -/
theorem out_eq :
    out1_A_3 (F := F) c i arg2 harg2 arg3 harg3 arg4 harg4 arg5 harg5 arg6 harg6 arg7 harg7 arg8 harg8 x0 x1 x2
      = k1_pay7 (state (k1_pay4 x0) (chunk x1) (chunk x2) k1_t1_loop.trips).2.2
          (state (k1_pay4 x0) (chunk x1) (chunk x2) k1_t1_loop.trips).2.1 := by
  unfold out1_A_3
  rw [View.read_writes_eq_canon _ _ _ (cover1_A_3 c i arg2 harg2 arg3 harg3 arg4 harg4 arg5 harg5 arg6 harg6 arg7 harg7 arg8 harg8 x0 x1 x2)]
  unfold kernelRun1_A
  dsimp only
  sl_unfold_run_names
  rw [View.canon_unit_zero hz3]
  obtain ⟨-, h7, h8⟩ := pb_read Variants.none none c i arg2 harg2 arg3 harg3 arg4 harg4 arg5 harg5 arg6 harg6 arg7 harg7 arg8 harg8
    (View.readAt (Elt F) arg2.view (Rect.unit (s := S1x1024x256) ![0, 0, 0] S1x1024x256.size inb_S1x1024x256_S1x1024x256_0_0_0).toLoadRect (harg2.unread x0))
    (harg3.unread x1) (harg4.unread x2) (arg6.view.writes (Elt F) arg6.view.junk [⟨Rect.unit (s := S1024x1) ![0, 0] S1024x1.size inb_S1024x1_S1024x1_0_0, k1_pay1⟩]) (arg7.view.writes (Elt F) arg7.view.junk [⟨Rect.unit (s := S1024x1) ![0, 0] S1024x1.size inb_S1024x1_S1024x1_0_0, k1_pay2⟩]) (arg8.view.writes (Elt F) arg8.view.junk [⟨Rect.unit (s := S1024x256) ![0, 0] S1024x256.size inb_S1024x256_S1024x256_0_0, k1_pay3⟩])
    (read_writes_cons_unit_zero arg6.view _ hz2 _ _ _) (read_writes_cons_unit_zero arg7.view _ hz2 _ _ _)
    (read_writes_cons_unit_zero arg8.view _ hz2 _ _ _) k1_t1_loop.trips le_rfl
  have hq : View.readAt (Elt F) arg2.view (Rect.unit (s := S1x1024x256) ![0, 0, 0] S1x1024x256.size inb_S1x1024x256_S1x1024x256_0_0_0).toLoadRect (harg2.unread x0) = x0 := by
    rw [View.readAt_eq_ld, harg2.read_unread, View.ld_unit_zero (S := S1x1024x256) hz3]
  have hK : (fun k => View.readAt (Elt F) arg3.view (Rect.unit (s := S1x4096x256) (k1_off1 k) S1x512x256.size (k1_off1_inb k)).toLoadRect (harg3.unread x1)) = chunk x1 :=
    funext fun k => by rw [View.readAt_eq_ld, harg3.read_unread]; rfl
  have hV : (fun k => View.readAt (Elt F) arg4.view (Rect.unit (s := S1x4096x256) (k1_off1 k) S1x512x256.size (k1_off1_inb k)).toLoadRect (harg4.unread x2)) = chunk x2 :=
    funext fun k => by rw [View.readAt_eq_ld, harg4.read_unread]; rfl
  rw [hq, hK, hV] at h7 h8
  rw [View.writes_append, View.writes_append]
  simp only [View.readAt_eq_ld, View.ld_unit_zero (S := S1024x1) hz2, View.ld_unit_zero (S := S1024x256) hz2,
    harg2.read_unread, View.ld_unit_zero (S := S1x1024x256) hz3]
  exact congrArg₂ k1_pay7 h8 h7

end Out

end Cert.KernelIdeal.Flash

end
-- ==== Proof.LibColumnLayout.lean ====
/-
  Column layouts read at an index given by coordinates.

  A row reduction kept as a column — a sum over the lanes of an `[a, b]` array, viewed `[a, 1]` and spread back over
  `[a, b]` — passes through three layout steps that each read ONE entry of their operand:
  • a vector `[a]` viewed as a column `[a, 1]` reads, at `(i, u)`, entry `i`;
  • a column `[a, 1]` spread over `[a, b]` reads, at `(i, c)`, the column's entry in row `i`;
  • the one entry of a `[1, 1]` array taken out at position `(0, 0)` is the array at `(0, 0)`.
  Each is the general read-at-an-index lemma of its operation with both indices written by coordinates, so that it
  applies to a printed operation by unification, whatever proof of the shape relation the operation carries.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column's entry in row `i`. -/
theorem broadcastTo_a1_ab_apply {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The entry of a `[1, 1]` array extracted at the static position `(0, 0)` is the array at `(0, 0)`. -/
theorem extractAt_11_apply (x : (⟨2, ![1, 1]⟩ : Shape).Idx → α)
    (h : ∀ a, (![0, 0] : Fin 2 → Nat) a < (⟨2, ![1, 1]⟩ : Shape).size a) :
    extractAt ![0, 0] x h = x (ix2 (0 : Fin 1) (0 : Fin 1)) :=
  congrArg x (funext fun a => Fin.ext (by
    match a with
    | ⟨0, _⟩ => rfl
    | ⟨1, _⟩ => rfl))

end Idealize.ShloMosaic.ValueIdx
-- ==== Proof.FlashRead.lean ====
/-
  The attention body's arithmetic read one entry at a time, on the extended reals.

  For a query block `q` (1024 rows) and one chunk of 512 key rows `Kc` and value rows `Vc`, the score of row `r` against
  key `j` is `sc r j = (∑ e, q[r, e] · Kc[j, e]) · 1/16`.  With the running state `(m, l, acc)` found in the scratch
  buffers the chunk computes, row by row,
    `m' = max m (max_j sc r j)`, `a = exp (m - m')`, `p j = exp (sc r j - m')`,
    `l' = a · l + ∑ j, p j`,  `acc'[r, d] = a · acc[r, d] + ∑ j, p j · Vc[j, d]`,
  and the final store is `acc[r, d] / l[r]`.
-/
import proofs.«159504_j10333691314194_2_alg».proof.Proof.Gen.KernelIdeal.Skeleton
import proofs.«159504_j10333691314194_2_alg».proof.Proof.LibColumnLayout
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.FlashRead

open Cert.KernelIdeal Cert.KernelIdeal.Gen
open Idealize.ShloMosaic Idealize.ShloMosaic.ValueIdx

/-- The product of the query block with the transposed key chunk, into a zero accumulator, at `(r, j)`: the sum over the 256 features. -/
theorem qk_apply (lhs : FVec Ideal S1024x256 .bf16) (rhs : FVec Ideal S256x512 .bf16) (r : Fin 1024) (c : Fin 512) :
    matmul dot_S1024x256_S256x512_S1024x512_1_0_0_1_n_n none lhs rhs (constant S1024x512 .f32 0x00000000#32) (ix2 r c)
      = ∑ k : Fin 256, lhs (ix2 r k) * rhs (ix2 k c) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have l0 : ∀ (i : S1024x512.Idx) (q : dot_S1024x256_S256x512_S1024x512_1_0_0_1_n_n.contr.Idx), (dot_S1024x256_S256x512_S1024x512_1_0_0_1_n_n.lhsIdx i q 0).val = (i 0).val := fun i q => by
    unfold DotDims.lhsIdx
    rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
    rfl
  have r1 : ∀ (i : S1024x512.Idx) (q : dot_S1024x256_S256x512_S1024x512_1_0_0_1_n_n.contr.Idx), (dot_S1024x256_S256x512_S1024x512_1_0_0_1_n_n.rhsIdx i q 1).val = (i 1).val := fun i q => by
    unfold DotDims.rhsIdx
    rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
    rfl
  have el : dot_S1024x256_S256x512_S1024x512_1_0_0_1_n_n.lhsIdx (ix2 r c) ((contrEquiv1 dot_S1024x256_S256x512_S1024x512_1_0_0_1_n_n 256 rfl rfl).symm k) = ix2 r k := funext fun a => Fin.ext (by
    match a with
    | ⟨0, _⟩ => exact l0 _ _
    | ⟨1, _⟩ => exact (dot_S1024x256_S256x512_S1024x512_1_0_0_1_n_n.lhsIdx_val_of_single rfl _ _).trans hk)
  have er : dot_S1024x256_S256x512_S1024x512_1_0_0_1_n_n.rhsIdx (ix2 r c) ((contrEquiv1 dot_S1024x256_S256x512_S1024x512_1_0_0_1_n_n 256 rfl rfl).symm k) = ix2 k c := funext fun a => Fin.ext (by
    match a with
    | ⟨0, _⟩ => exact (dot_S1024x256_S256x512_S1024x512_1_0_0_1_n_n.rhsIdx_val_of_single rfl _ _).trans hk
    | ⟨1, _⟩ => exact r1 _ _)
  rw [el, er]

/-- The product of the chunk's weights with the value chunk, into a zero accumulator, at `(r, d)`: the sum over the chunk's 512 keys. -/
theorem pv_apply (lhs : FVec Ideal S1024x512 .bf16) (rhs : FVec Ideal S512x256 .bf16) (r : Fin 1024) (c : Fin 256) :
    matmul dot_S1024x512_S512x256_S1024x256_1_0_0_1_n_n none lhs rhs (constant S1024x256 .f32 0x00000000#32) (ix2 r c)
      = ∑ k : Fin 512, lhs (ix2 r k) * rhs (ix2 k c) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have l0 : ∀ (i : S1024x256.Idx) (q : dot_S1024x512_S512x256_S1024x256_1_0_0_1_n_n.contr.Idx), (dot_S1024x512_S512x256_S1024x256_1_0_0_1_n_n.lhsIdx i q 0).val = (i 0).val := fun i q => by
    unfold DotDims.lhsIdx
    rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
    rfl
  have r1 : ∀ (i : S1024x256.Idx) (q : dot_S1024x512_S512x256_S1024x256_1_0_0_1_n_n.contr.Idx), (dot_S1024x512_S512x256_S1024x256_1_0_0_1_n_n.rhsIdx i q 1).val = (i 1).val := fun i q => by
    unfold DotDims.rhsIdx
    rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
    rfl
  have el : dot_S1024x512_S512x256_S1024x256_1_0_0_1_n_n.lhsIdx (ix2 r c) ((contrEquiv1 dot_S1024x512_S512x256_S1024x256_1_0_0_1_n_n 512 rfl rfl).symm k) = ix2 r k := funext fun a => Fin.ext (by
    match a with
    | ⟨0, _⟩ => exact l0 _ _
    | ⟨1, _⟩ => exact (dot_S1024x512_S512x256_S1024x256_1_0_0_1_n_n.lhsIdx_val_of_single rfl _ _).trans hk)
  have er : dot_S1024x512_S512x256_S1024x256_1_0_0_1_n_n.rhsIdx (ix2 r c) ((contrEquiv1 dot_S1024x512_S512x256_S1024x256_1_0_0_1_n_n 512 rfl rfl).symm k) = ix2 k c := funext fun a => Fin.ext (by
    match a with
    | ⟨0, _⟩ => exact (dot_S1024x512_S512x256_S1024x256_1_0_0_1_n_n.rhsIdx_val_of_single rfl _ _).trans hk
    | ⟨1, _⟩ => exact r1 _ _)
  rw [el, er]

/-- The score of row `r` of the query block against key `j` of the chunk. -/
def sc (q : FVec Ideal S1024x256 .bf16) (Kc : Vec Ideal S1x512x256 .bf16) (r : Fin 1024) (j : Fin 512) : EReal :=
  (∑ e : Fin 256, q (ix2 r e) * Kc (ix3 (0 : Fin 1) j e)) * Ideal.ofBits .f32 0x3D800000#32

theorem pay8_apply (q : FVec Ideal S1024x256 .bf16) (Kc : Vec Ideal S1x512x256 .bf16) (r : Fin 1024) (j : Fin 512) :
    k1_pay8 q Kc (ix2 r j) = sc q Kc r j := by
  unfold k1_pay8 sc
  try dsimp only
  rw [mulf_apply, broadcast_apply, qk_apply]
  refine congrArg₂ (· * ·) (Finset.sum_congr rfl fun e _ => ?_) rfl
  rw [transpose_ix2_apply, shapeCast_1ab_ab_apply]

/-- The word `0xFF800000` denotes `-∞`. -/
theorem word_bot : FloatOps.ofBits (F := Ideal) .f32 0xFF800000#32 = (⊥ : EReal) := by
  simp [Ideal.ofBits, Ideal.ieee]

/-- A row's index with the lane coordinate put back is the pair of coordinates. -/
theorem lift_row (r : Fin 1024) (j : Fin 512) : reduces_S1024x512_S1024.lift (ix1 r) j = ix2 r j :=
  funext fun a => Fin.ext (by
    match a with
    | ⟨0, _⟩ => rfl
    | ⟨1, _⟩ => rfl)

/-- The chunk's row maximum joined to the running one. -/
theorem pay9_apply (q : FVec Ideal S1024x256 .bf16) (Kc : Vec Ideal S1x512x256 .bf16) (M : Vec Ideal S1024x1 .f32)
    (r : Fin 1024) (u : Fin 1) :
    k1_pay9 q Kc M (ix2 r u) = max (M (ix2 r u)) (Finset.univ.fold max ⊥ (fun j : Fin 512 => sc q Kc r j)) := by
  unfold k1_pay9
  try dsimp only
  rw [maximumf_apply, shapeCast_a_a1_apply]
  refine congrArg (max (M (ix2 r u))) ?_
  refine (Ideal.multiReduction_maximumf_single (k1_pay8 q Kc) 0xFF800000#32 reduces_S1024x512_S1024 _ _ (ix1 r)).trans ?_
  have hf : (k1_pay8 q Kc ∘ reduces_S1024x512_S1024.lift (ix1 r)) = (fun j : Fin 512 => sc q Kc r j) := funext fun (j : Fin 512) => by
    show k1_pay8 q Kc (reduces_S1024x512_S1024.lift (ix1 r) j) = _
    rw [lift_row, pay8_apply]
  rw [word_bot, hf]
  rfl

/-- The rescaling factor `exp (m - m')`. -/
theorem pay10_apply (q : FVec Ideal S1024x256 .bf16) (Kc : Vec Ideal S1x512x256 .bf16) (M : Vec Ideal S1024x1 .f32)
    (r : Fin 1024) (u : Fin 1) :
    k1_pay10 q Kc M (ix2 r u) = Ideal.exp (M (ix2 r u) - k1_pay9 q Kc M (ix2 r u)) := rfl

/-- The chunk's weights `exp (sc r j - m')`. -/
theorem pay11_apply (q : FVec Ideal S1024x256 .bf16) (Kc : Vec Ideal S1x512x256 .bf16) (M : Vec Ideal S1024x1 .f32)
    (r : Fin 1024) (j : Fin 512) :
    k1_pay11 q Kc M (ix2 r j) = Ideal.exp (sc q Kc r j - k1_pay9 q Kc M (ix2 r (0 : Fin 1))) := by
  unfold k1_pay11
  try dsimp only
  show Ideal.exp (k1_pay8 q Kc (ix2 r j) - broadcastTo S1024x512 (k1_pay9 q Kc M) broadcasts_S1024x1_S1024x512 (ix2 r j)) = _
  rw [broadcastTo_a1_ab_apply, pay8_apply]

/-- The new total `a · l + ∑ j, p j`. -/
theorem pay12_apply (q : FVec Ideal S1024x256 .bf16) (Kc : Vec Ideal S1x512x256 .bf16) (M L : Vec Ideal S1024x1 .f32)
    (r : Fin 1024) (u : Fin 1) :
    k1_pay12 q Kc M L (ix2 r u)
      = k1_pay10 q Kc M (ix2 r u) * L (ix2 r u) + ∑ j : Fin 512, k1_pay11 q Kc M (ix2 r j) := by
  unfold k1_pay12
  try dsimp only
  rw [shapeCast_self, addf_apply, mulf_apply, shapeCast_a_a1_apply]
  refine congrArg₂ (· + ·) rfl ?_
  refine (Ideal.multiReduction_add_single (k1_pay11 q Kc M) 0x00000000#32 reduces_S1024x512_S1024 _ _ (ix1 r)).trans ?_
  exact Finset.sum_congr rfl fun (j : Fin 512) _ => by rw [lift_row]

/-- The new weighted total `a · acc[r, d] + ∑ j, p j · Vc[j, d]`. -/
theorem pay13_apply (q : FVec Ideal S1024x256 .bf16) (Kc Vc : Vec Ideal S1x512x256 .bf16) (M : Vec Ideal S1024x1 .f32)
    (A : Vec Ideal S1024x256 .f32) (r : Fin 1024) (d : Fin 256) :
    k1_pay5 (k1_pay13 q Kc Vc M A) (ix2 r d)
      = k1_pay10 q Kc M (ix2 r (0 : Fin 1)) * A (ix2 r d) + ∑ j : Fin 512, k1_pay11 q Kc M (ix2 r j) * Vc (ix3 (0 : Fin 1) j d) := by
  unfold k1_pay5 k1_pay13
  try dsimp only
  rw [shapeCast_self, addf_apply, mulf_apply, broadcastTo_a1_ab_apply, pv_apply]
  refine congrArg₂ (· + ·) rfl (Finset.sum_congr rfl fun j _ => ?_)
  rw [truncf_apply, shapeCast_1ab_ab_apply]

/-- The maximum is stored as it is. -/
theorem pay6_eq (x : FVec Ideal S1024x1 .f32) : k1_pay6 x = x := by
  unfold k1_pay6
  try dsimp only
  rw [shapeCast_self]

/-- The query block without its unit axis. -/
theorem pay4_apply (v12 : Vec Ideal S1x1024x256 .bf16) (r : Fin 1024) (e : Fin 256) :
    k1_pay4 v12 (ix2 r e) = v12 (ix3 (0 : Fin 1) r e) := by
  unfold k1_pay4
  try dsimp only
  rw [shapeCast_1ab_ab_apply]

/-- The final store `acc[r, d] / l[r]`. -/
theorem pay7_apply (A : Vec Ideal S1024x256 .f32) (L : Vec Ideal S1024x1 .f32) (u : Fin 1) (r : Fin 1024) (d : Fin 256) :
    k1_pay7 A L (ix3 u r d) = Ideal.div (A (ix2 r d)) (L (ix2 r (0 : Fin 1))) := by
  unfold k1_pay7
  try dsimp only
  rw [shapeCast_ab_1ab_apply, divf_apply, broadcastTo_a1_ab_apply]

/-- The state before the first chunk: `-∞`, `0`, `0`. -/
theorem pay1_apply (i : S1024x1.Idx) : k1_pay1 (F := Ideal) i = ⊥ := by
  unfold k1_pay1
  try dsimp only
  rw [shapeCast_self]
  exact word_bot

theorem pay2_apply (i : S1024x1.Idx) : k1_pay2 (F := Ideal) i = 0 := by
  unfold k1_pay2
  try dsimp only
  rw [shapeCast_self]
  exact Ideal.ofBits_zero_f32

theorem pay3_apply (i : S1024x256.Idx) : k1_pay3 (F := Ideal) i = 0 := by
  unfold k1_pay3
  try dsimp only
  rw [shapeCast_self]
  exact Ideal.ofBits_zero_f32

end Cert.KernelIdeal.FlashRead

end
-- ==== Proof.Online.lean ====
/-
  The online softmax, as algebra on the extended reals.

  A row of finite scores `s i` is met chunk by chunk.  After the chunks `S` the running state is the maximum
  `m = sup_S s` (`-∞` before the first chunk), the total `∑_S exp (s i - m)` and the weighted total
  `∑_S exp (s i - m) · w i`.  Meeting a further nonempty chunk `T` replaces `m` by `m' = max m (sup_T s)`, scales both
  totals by `exp (m - m')` and adds the chunk's own terms; the result is the state of `S ∪ T` — because
  `exp (m - m') · exp (s i - m) = exp (s i - m')` for real `m, m'`, and because before the first chunk the totals are `0`
  and `exp (-∞) = 0`.  At the end the weighted total divided by the total is the sum of the normalised weights times `w`.
-/
import Idealize.ShloMosaic.PureOps.Ideal
import Idealize.ShloMosaic.PureOps.Ideal.Laws

noncomputable section

open scoped BigOperators

namespace Cert.Online

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of `max` from `-∞` is the supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-- The supremum of finitely many reals over a nonempty set is a real, attained in the set. -/
theorem sup_coe_of_nonempty {ι : Type*} (S : Finset ι) (hS : S.Nonempty) (sr : ι → ℝ) :
    ∃ i ∈ S, S.sup (fun i => (sr i : EReal)) = (sr i : EReal) := by
  obtain ⟨i, hi, h⟩ := Finset.exists_mem_eq_sup S hS (fun i => (sr i : EReal))
  exact ⟨i, hi, h⟩

/-- `exp` of a difference of reals. -/
theorem exp_coe_sub (a b : ℝ) : Ideal.exp ((a : EReal) - (b : EReal)) = ((Real.exp (a - b) : ℝ) : EReal) := by
  rw [← EReal.coe_sub, Ideal.exp_coe]

/-- One step of the online softmax: the state of `S`, rescaled to the new maximum, plus the chunk `T`'s terms, is the state
    of `S ∪ T`. -/
theorem step_sum {ι : Type*} [DecidableEq ι] (S T : Finset ι) (hd : Disjoint S T) (hT : T.Nonempty) (sr wr : ι → ℝ) :
    Ideal.exp (S.sup (fun i => (sr i : EReal)) - max (S.sup (fun i => (sr i : EReal))) (T.sup (fun i => (sr i : EReal))))
        * (∑ i ∈ S, Ideal.exp ((sr i : EReal) - S.sup (fun i => (sr i : EReal))) * (wr i : EReal))
      + ∑ i ∈ T, Ideal.exp ((sr i : EReal) - max (S.sup (fun i => (sr i : EReal))) (T.sup (fun i => (sr i : EReal)))) * (wr i : EReal)
    = ∑ i ∈ S ∪ T, Ideal.exp ((sr i : EReal) - max (S.sup (fun i => (sr i : EReal))) (T.sup (fun i => (sr i : EReal)))) * (wr i : EReal) := by
  rw [Finset.sum_union hd]
  congr 1
  obtain ⟨j0, _, hj0⟩ := sup_coe_of_nonempty T hT sr
  rcases S.eq_empty_or_nonempty with hS | hS
  · subst hS
    simp
  · obtain ⟨i0, _, hi0⟩ := sup_coe_of_nonempty S hS sr
    rw [hi0, hj0, (EReal.coe_strictMono.monotone.map_max (a := sr i0) (b := sr j0)).symm, exp_coe_sub]
    simp only [exp_coe_sub, ← EReal.coe_mul, ← coe_sum]
    rw [Finset.mul_sum]
    refine congrArg _ (Finset.sum_congr rfl fun i _ => ?_)
    rw [← mul_assoc, ← Real.exp_add]
    congr 2
    ring

/-- The new maximum is the supremum over the union. -/
theorem sup_union_max {ι : Type*} [DecidableEq ι] (S T : Finset ι) (s : ι → EReal) :
    max (S.sup s) (T.sup s) = (S ∪ T).sup s := by
  rw [Finset.sup_union]

/-- The end of the online softmax against the two-pass one: over a nonempty set of finite scores, the weighted total divided
    by the total is the sum of the weights each divided by the total, times `w`. -/
theorem final_div {ι : Type*} (S : Finset ι) (hS : S.Nonempty) (sr wr : ι → ℝ) (M : ℝ) :
    Ideal.div (∑ i ∈ S, Ideal.exp ((sr i : EReal) - (M : EReal)) * (wr i : EReal))
        (∑ i ∈ S, Ideal.exp ((sr i : EReal) - (M : EReal)))
      = ∑ i ∈ S, Ideal.div (Ideal.exp ((sr i : EReal) - (M : EReal)))
          (0 + ∑ j ∈ S, Ideal.exp ((sr j : EReal) - (M : EReal))) * (wr i : EReal) := by
  have hpos : 0 < ∑ j ∈ S, Real.exp (sr j - M) := Finset.sum_pos (fun j _ => Real.exp_pos _) hS
  have hne : (∑ j ∈ S, Real.exp (sr j - M)) ≠ 0 := ne_of_gt hpos
  simp only [exp_coe_sub, ← EReal.coe_mul, ← coe_sum, zero_add]
  rw [Ideal.div_coe hne]
  simp only [Ideal.div_coe hne, ← EReal.coe_mul, ← coe_sum]
  refine congrArg _ ?_
  rw [Finset.sum_mul]
  refine Finset.sum_congr rfl fun i _ => ?_
  ring

end Cert.Online

end
-- ==== Proof.OnlineChunks.lean ====
/-
  The online softmax over keys that arrive in chunks.

  The keys are pairs (chunk, row in the chunk).  After the chunks in `S` the state is the one of the key set `S × rows`; meeting
  the chunk `c ∉ S` gives the state of `(insert c S) × rows`: the chunk's own maximum and sums run over its rows alone.
-/
import proofs.«159504_j10333691314194_2_alg».proof.Proof.Online

noncomputable section

open scoped BigOperators

namespace Cert.Online

open Idealize.ShloMosaic

variable {C J : Type} [DecidableEq C] [DecidableEq J] [Fintype J]

/-- A sum over one chunk's keys is the sum over its rows. -/
theorem sum_chunk (c : C) (f : C × J → EReal) :
    ∑ p ∈ ({c} : Finset C) ×ˢ (Finset.univ : Finset J), f p = ∑ j : J, f (c, j) := by
  rw [Finset.sum_product, Finset.sum_singleton]

/-- The supremum over one chunk's keys is the supremum over its rows. -/
theorem sup_chunk (c : C) (f : C × J → EReal) :
    (({c} : Finset C) ×ˢ (Finset.univ : Finset J)).sup f = Finset.univ.sup (fun j => f (c, j)) := by
  rw [Finset.sup_product_left, Finset.sup_singleton]

/-- The keys of the chunks `insert c S` are those of `S` and those of `c`. -/
theorem keys_insert (S : Finset C) (c : C) :
    (S ×ˢ (Finset.univ : Finset J)) ∪ (({c} : Finset C) ×ˢ (Finset.univ : Finset J)) = (insert c S) ×ˢ (Finset.univ : Finset J) := by
  rw [← Finset.union_product, Finset.union_comm, ← Finset.insert_eq]

/-- The running maximum after the chunk `c`. -/
theorem chunk_max (S : Finset C) (c : C) (s : C × J → EReal) :
    max ((S ×ˢ (Finset.univ : Finset J)).sup s) (Finset.univ.sup (fun j => s (c, j)))
      = ((insert c S) ×ˢ (Finset.univ : Finset J)).sup s := by
  rw [← sup_chunk, sup_union_max, keys_insert]

/-- The running weighted total after the chunk `c`: the old one rescaled to the new maximum plus the chunk's own terms. -/
theorem chunk_step [Nonempty J] (S : Finset C) (c : C) (hc : c ∉ S) (s w : C × J → EReal) (sr wr : C × J → ℝ)
    (hs : ∀ p, s p = (sr p : EReal)) (hw : ∀ p, w p = (wr p : EReal)) :
    Ideal.exp ((S ×ˢ (Finset.univ : Finset J)).sup s
          - max ((S ×ˢ (Finset.univ : Finset J)).sup s) (Finset.univ.sup (fun j => s (c, j))))
        * (∑ p ∈ S ×ˢ (Finset.univ : Finset J), Ideal.exp (s p - (S ×ˢ (Finset.univ : Finset J)).sup s) * w p)
      + ∑ j : J, Ideal.exp (s (c, j) - max ((S ×ˢ (Finset.univ : Finset J)).sup s) (Finset.univ.sup (fun j => s (c, j)))) * w (c, j)
    = ∑ p ∈ (insert c S) ×ˢ (Finset.univ : Finset J),
        Ideal.exp (s p - max ((S ×ˢ (Finset.univ : Finset J)).sup s) (Finset.univ.sup (fun j => s (c, j)))) * w p := by
  obtain rfl : s = fun p => (sr p : EReal) := funext hs
  obtain rfl : w = fun p => (wr p : EReal) := funext hw
  have hd : Disjoint (S ×ˢ (Finset.univ : Finset J)) (({c} : Finset C) ×ˢ (Finset.univ : Finset J)) :=
    Finset.disjoint_product.mpr (Or.inl (Finset.disjoint_singleton_right.mpr hc))
  have hT : (({c} : Finset C) ×ˢ (Finset.univ : Finset J)).Nonempty :=
    Finset.Nonempty.product (Finset.singleton_nonempty c) Finset.univ_nonempty
  have h := step_sum (S ×ˢ (Finset.univ : Finset J)) (({c} : Finset C) ×ˢ (Finset.univ : Finset J)) hd hT sr wr
  rw [keys_insert, sup_chunk, sum_chunk c (fun p => Ideal.exp ((sr p : EReal) - _) * (wr p : EReal))] at h
  exact h

/-- The running total after the chunk `c` (the weights all `1`). -/
theorem chunk_step_one [Nonempty J] (S : Finset C) (c : C) (hc : c ∉ S) (s : C × J → EReal) (sr : C × J → ℝ)
    (hs : ∀ p, s p = (sr p : EReal)) :
    Ideal.exp ((S ×ˢ (Finset.univ : Finset J)).sup s
          - max ((S ×ˢ (Finset.univ : Finset J)).sup s) (Finset.univ.sup (fun j => s (c, j))))
        * (∑ p ∈ S ×ˢ (Finset.univ : Finset J), Ideal.exp (s p - (S ×ˢ (Finset.univ : Finset J)).sup s))
      + ∑ j : J, Ideal.exp (s (c, j) - max ((S ×ˢ (Finset.univ : Finset J)).sup s) (Finset.univ.sup (fun j => s (c, j))))
    = ∑ p ∈ (insert c S) ×ˢ (Finset.univ : Finset J),
        Ideal.exp (s p - max ((S ×ˢ (Finset.univ : Finset J)).sup s) (Finset.univ.sup (fun j => s (c, j)))) := by
  have h := chunk_step S c hc s (fun _ => 1) sr (fun _ => 1) hs (fun _ => EReal.coe_one.symm)
  simpa only [mul_one] using h

/-- The end over a nonempty key set, in terms of the extended-real scores and weights: the weighted total over the total is
    the sum of the normalised weights times `w`, the shift being the scores' supremum. -/
theorem final_div_sup {ι : Type} (S : Finset ι) (hS : S.Nonempty) (s w : ι → EReal) (sr wr : ι → ℝ)
    (hs : ∀ p, s p = (sr p : EReal)) (hw : ∀ p, w p = (wr p : EReal)) :
    Ideal.div (∑ p ∈ S, Ideal.exp (s p - S.sup s) * w p) (∑ p ∈ S, Ideal.exp (s p - S.sup s))
      = ∑ p ∈ S, Ideal.div (Ideal.exp (s p - S.sup s)) (0 + ∑ p' ∈ S, Ideal.exp (s p' - S.sup s)) * w p := by
  obtain rfl : s = fun p => (sr p : EReal) := funext hs
  obtain rfl : w = fun p => (wr p : EReal) := funext hw
  obtain ⟨i0, _, h0⟩ := sup_coe_of_nonempty S hS sr
  rw [h0]
  exact final_div S hS sr wr (sr i0)

end Cert.Online

end
-- ==== Proof.FlashInv.lean ====
/-
  The attention body's running state is the online softmax of the scores met so far.

  Fix a row `r` of the query block.  The keys are pairs (chunk `c`, row `j` of the chunk), the score of a key is
  `s (c, j) = sc q (Kc c) r j`, its weight for the output column `d` is `Vc c [j, d]`.  After `n` chunks the state holds,
  for the keys of the chunks before `n`, the supremum of the scores, the total `∑ exp (s - sup)` and the weighted totals
  `∑ exp (s - sup) · w`; all scores and weights being finite.  After all the chunks the stored quotient is the two-pass
  softmax sum over all the keys.
-/
import proofs.«159504_j10333691314194_2_alg».proof.Proof.FlashState
import proofs.«159504_j10333691314194_2_alg».proof.Proof.FlashRead
import proofs.«159504_j10333691314194_2_alg».proof.Proof.OnlineChunks

set_option maxRecDepth 16384

noncomputable section

open scoped BigOperators

namespace Cert.KernelIdeal.FlashInv

open Cert.KernelIdeal Cert.KernelIdeal.Gen Cert.KernelIdeal.Flash Cert.KernelIdeal.FlashRead Cert.Online
open Idealize.ShloMosaic Idealize.ShloMosaic.ValueIdx

/-- The chunks' index type. -/
abbrev Chunk := Fin k1_t1_loop.trips

theorem trips_eq : k1_t1_loop.trips = 8 := by decide

/-- The word `0x3D800000` denotes `1/16`. -/
theorem word_sixteenth : Ideal.ofBits .f32 0x3D800000#32 = (((1 : ℝ) / 16 : ℝ) : EReal) := by
  simp [Ideal.ofBits, Ideal.ieee, -EReal.coe_mul]; norm_num

/-- The chunks before `n`. -/
def before (n : ℕ) : Finset Chunk := Finset.univ.filter (fun c => c.val < n)

theorem before_zero : before 0 = ∅ := by
  unfold before; exact Finset.filter_false_of_mem (fun c _ => Nat.not_lt_zero _)

theorem before_succ (c : Chunk) : before (c.val + 1) = insert c (before c.val) := by
  unfold before; ext a
  simp only [Finset.mem_filter, Finset.mem_univ, true_and, Finset.mem_insert]
  constructor
  · intro h
    rcases Nat.lt_succ_iff_lt_or_eq.mp h with h | h
    · exact Or.inr h
    · exact Or.inl (Fin.ext h)
  · rintro (rfl | h)
    · exact Nat.lt_succ_self _
    · exact Nat.lt_succ_of_lt h

theorem not_mem_before (c : Chunk) : c ∉ before c.val := by
  unfold before; simp

theorem before_trips : before k1_t1_loop.trips = Finset.univ := by
  unfold before; exact Finset.filter_true_of_mem (fun c _ => c.isLt)

section Row

variable (q : FVec Ideal S1024x256 .bf16) (Kc Vc : Chunk → Vec Ideal S1x512x256 .bf16)

/-- The score of the key `(c, j)` for row `r`. -/
def s (r : Fin 1024) : Chunk × Fin 512 → EReal := fun p => sc q (Kc p.1) r p.2

/-- The weight of the key `(c, j)` for the output column `d`. -/
def w (d : Fin 256) : Chunk × Fin 512 → EReal := fun p => Vc p.1 (ix3 (0 : Fin 1) p.2 d)

variable (qr : Fin 1024 → Fin 256 → ℝ) (kr vr : Chunk → Fin 512 → Fin 256 → ℝ)
  (hq : ∀ r e, q (ix2 r e) = (qr r e : EReal)) (hk : ∀ c j e, Kc c (ix3 (0 : Fin 1) j e) = (kr c j e : EReal))
  (hv : ∀ c j d, Vc c (ix3 (0 : Fin 1) j d) = (vr c j d : EReal))

/-- The scores are real. -/
def sr (r : Fin 1024) : Chunk × Fin 512 → ℝ := fun p => (∑ e : Fin 256, qr r e * kr p.1 p.2 e) * (1 / 16)

include hq hk in
theorem s_real (r : Fin 1024) (p : Chunk × Fin 512) : s q Kc r p = (sr qr kr r p : EReal) := by
  unfold s sc sr
  simp only [hq, hk, word_sixteenth, ← EReal.coe_mul, ← coe_sum]

include hv in
theorem w_real (d : Fin 256) (p : Chunk × Fin 512) : w Vc d p = (vr p.1 p.2 d : EReal) := hv _ _ _

include hq hk hv in
/-- The state after `n` chunks is the online softmax of the keys of the chunks before `n`. -/
theorem inv (r : Fin 1024) (n : ℕ) (hn : n ≤ k1_t1_loop.trips) :
    (state q Kc Vc n).1 (ix2 r (0 : Fin 1)) = ((before n) ×ˢ (Finset.univ : Finset (Fin 512))).sup (s q Kc r)
    ∧ (state q Kc Vc n).2.1 (ix2 r (0 : Fin 1))
        = ∑ p ∈ (before n) ×ˢ (Finset.univ : Finset (Fin 512)),
            Ideal.exp (s q Kc r p - ((before n) ×ˢ (Finset.univ : Finset (Fin 512))).sup (s q Kc r))
    ∧ ∀ d : Fin 256, (state q Kc Vc n).2.2 (ix2 r d)
        = ∑ p ∈ (before n) ×ˢ (Finset.univ : Finset (Fin 512)),
            Ideal.exp (s q Kc r p - ((before n) ×ˢ (Finset.univ : Finset (Fin 512))).sup (s q Kc r)) * w Vc d p := by
  induction n with
  | zero =>
    rw [before_zero, Finset.empty_product]
    refine ⟨?_, ?_, fun d => ?_⟩
    · rw [Finset.sup_empty]; exact pay1_apply (ix2 r (0 : Fin 1))
    · rw [Finset.sum_empty]; exact pay2_apply (ix2 r (0 : Fin 1))
    · rw [Finset.sum_empty]; exact pay3_apply (ix2 r d)
  | succ n ih =>
    have h : n < k1_t1_loop.trips := hn
    obtain ⟨iM, iL, iA⟩ := ih (Nat.le_of_lt h)
    have es : state q Kc Vc (n + 1) = _ := state_succ q Kc Vc ⟨n, h⟩
    have eb : before (n + 1) = insert (⟨n, h⟩ : Chunk) (before n) := before_succ ⟨n, h⟩
    have hc : (⟨n, h⟩ : Chunk) ∉ before n := not_mem_before ⟨n, h⟩
    have hm' : k1_pay9 q (Kc ⟨n, h⟩) (state q Kc Vc n).1 (ix2 r (0 : Fin 1))
        = max (((before n) ×ˢ (Finset.univ : Finset (Fin 512))).sup (s q Kc r))
            (Finset.univ.sup (fun j => s q Kc r (⟨n, h⟩, j))) := by
      rw [pay9_apply, iM, fold_max_eq_sup]; rfl
    have hmax := chunk_max (J := Fin 512) (before n) (⟨n, h⟩ : Chunk) (s q Kc r)
    rw [es, eb]
    dsimp only
    refine ⟨?_, ?_, fun d => ?_⟩
    · rw [pay6_eq, hm', hmax]
    · rw [pay12_apply]
      simp only [pay10_apply, pay11_apply, hm', iM, iL]
      rw [← hmax]
      exact chunk_step_one (before n) ⟨n, h⟩ hc (s q Kc r) (sr qr kr r) (s_real q Kc qr kr hq hk r)
    · rw [pay13_apply]
      simp only [pay10_apply, pay11_apply, hm', iM, iA d]
      rw [← hmax]
      exact chunk_step (before n) ⟨n, h⟩ hc (s q Kc r) (w Vc d) (sr qr kr r) (fun p => vr p.1 p.2 d)
        (s_real q Kc qr kr hq hk r) (w_real Vc vr hv d)

include hq hk hv in
/-- The stored quotient after all the chunks: the two-pass softmax sum over all the keys. -/
theorem out_row (u : Fin 1) (r : Fin 1024) (d : Fin 256) :
    k1_pay7 (F := Ideal) (state q Kc Vc k1_t1_loop.trips).2.2 (state q Kc Vc k1_t1_loop.trips).2.1 (ix3 u r d)
      = ∑ p : Chunk × Fin 512,
          Ideal.div (Ideal.exp (s q Kc r p - Finset.univ.sup (s q Kc r)))
              (0 + ∑ p' : Chunk × Fin 512, Ideal.exp (s q Kc r p' - Finset.univ.sup (s q Kc r)))
            * w Vc d p := by
  obtain ⟨-, iL, iA⟩ := inv q Kc Vc qr kr vr hq hk hv r k1_t1_loop.trips le_rfl
  rw [before_trips, Finset.univ_product_univ] at iL iA
  rw [pay7_apply, iL, iA d]
  have hne : (Finset.univ : Finset (Chunk × Fin 512)).Nonempty :=
    ⟨(⟨0, by rw [trips_eq]; decide⟩, 0), Finset.mem_univ _⟩
  exact final_div_sup Finset.univ hne (s q Kc r) (w Vc d) (sr qr kr r) (fun p => vr p.1 p.2 d)
    (s_real q Kc qr kr hq hk r) (w_real Vc vr hv d)

end Row

end Cert.KernelIdeal.FlashInv

end
-- ==== Proof.Spec.lean ====
/-
  One-head self-attention as one function of the argument arrays, on the extended reals.

  A linear layer sends a token row `x[b, s, ·]` to `∑ d, x[b, s, d] · w[e, d] + bias[e]`.  From the three layers
  `q`, `k`, `v` the score of query `i` against key `j` is `(∑ e, q[b, i, e] · k[b, j, e]) · 1/16`, and the output row is the
  softmax of the scores (shifted by the row's maximum) applied to the rows of `v`.
  `softmaxOut` spells the sum the way a two-pass softmax computes it: every weight divided by the row's total.
-/
import Idealize.ShloMosaic.PureOps.Ideal
import Idealize.ShloMosaic.Lib.ValueIdx

noncomputable section

open scoped BigOperators

namespace Cert.Attn

open Idealize.ShloMosaic Idealize.ShloMosaic.ValueIdx

/-- An array of tokens `[4, 4096, 256]`, a weight matrix `[256, 256]`, a bias `[256]`, as functions of an index. -/
abbrev Tok := (⟨3, ![4, 4096, 256]⟩ : Shape).Idx → EReal
abbrev Mat := (⟨2, ![256, 256]⟩ : Shape).Idx → EReal
abbrev Bias := (⟨1, ![256]⟩ : Shape).Idx → EReal

/-- A batch of rows by coordinates: batch, position, feature. -/
abbrev Rows := Fin 4 → Fin 4096 → Fin 256 → EReal

/-- The linear layer `y[b, s, e] = ∑ d, x[b, s, d] · w[e, d] + bias[e]`. -/
def lin (x : Tok) (w : Mat) (bias : Bias) : Rows := fun b s e =>
  (∑ d : Fin 256, x (ix3 b s d) * w (ix2 e d)) + bias (ix1 e)

/-- The scale of the scores, `1/16`, as the binary32 word that denotes it. -/
def scale : EReal := Ideal.ofBits .f32 0x3D800000#32

/-- The score of query `i` against key `j` in batch `b`. -/
def score (q k : Rows) (b : Fin 4) (i j : Fin 4096) : EReal :=
  (∑ e : Fin 256, q b i e * k b j e) * scale

/-- The maximum of a row of scores, taken from `-∞`. -/
def rowMax (s : Fin 4096 → EReal) : EReal := max ⊥ (Finset.univ.fold max ⊥ s)

/-- The two-pass softmax output: each weight `exp (s j - max) / (0 + ∑ j', exp (s j' - max))` times `v[b, j, d]`, summed over the keys. -/
def softmaxOut (q k v : Rows) : Rows := fun b i d =>
  ∑ j : Fin 4096,
    Ideal.div (Ideal.exp (score q k b i j - rowMax (score q k b i)))
        (0 + ∑ j' : Fin 4096, Ideal.exp (score q k b i j' - rowMax (score q k b i)))
      * v b j d

/-- The whole function: attention over the three linear layers of `x`. -/
def attention (x : Tok) (wq : Mat) (bq : Bias) (wk : Mat) (bk : Bias) (wv : Mat) (bv : Bias) : Tok := fun i =>
  softmaxOut (lin x wq bq) (lin x wk bk) (lin x wv bv) (i 0) (i 1) (i 2)

end Cert.Attn

end
-- ==== Proof.FlashFinal.lean ====
/-
  One output block of the attention kernel is the softmax of its rows' scores applied to the value rows.

  The keys of a batch are numbered `512 c + j` by chunk `c` and row `j` of the chunk.  When the query block holds the
  rows `1024 qb + r` of `Q` and the resident key and value blocks the rows of `K` and `V` of the same batch — all finite —
  the block's entry `(r, d)` is `softmaxOut Q K V` at row `1024 qb + r`, column `d`: the sums over (chunk, row) pairs
  are the sums over the 4096 keys, and the supremum of the scores is the row maximum taken from `-∞`.
-/
import proofs.«159504_j10333691314194_2_alg».proof.Proof.FlashInv
import proofs.«159504_j10333691314194_2_alg».proof.Proof.Spec

set_option maxRecDepth 16384

noncomputable section

open scoped BigOperators

namespace Cert.KernelIdeal.FlashFinal

open Cert.KernelIdeal Cert.KernelIdeal.Gen Cert.KernelIdeal.Flash Cert.KernelIdeal.FlashRead Cert.KernelIdeal.FlashInv
open Cert.Online Cert.Attn
open Idealize.ShloMosaic Idealize.ShloMosaic.ValueIdx

/-- Key `512 c + j` of a batch. -/
def keyOf (c : Chunk) (j : Fin 512) : Fin 4096 :=
  ⟨512 * c.val + j.val, by have := c.isLt; have := trips_eq; have := j.isLt; omega⟩

/-- (chunk, row) pairs are the keys. -/
def keyEquiv : Chunk × Fin 512 ≃ Fin 4096 where
  toFun p := keyOf p.1 p.2
  invFun k := (⟨k.val / 512, by rw [trips_eq]; have := k.isLt; omega⟩, ⟨k.val % 512, Nat.mod_lt _ (by norm_num)⟩)
  left_inv p := by
    obtain ⟨c, j⟩ := p
    exact Prod.ext (Fin.ext (by show (512 * c.val + j.val) / 512 = c.val; have := j.isLt; omega))
      (Fin.ext (by show (512 * c.val + j.val) % 512 = j.val; have := j.isLt; omega))
  right_inv k := Fin.ext (by show 512 * (k.val / 512) + k.val % 512 = k.val; omega)

/-- Row `1024 qb + r` of a batch. -/
def rowOf (qb : Fin 4) (r : Fin 1024) : Fin 4096 := ⟨1024 * qb.val + r.val, by have := qb.isLt; have := r.isLt; omega⟩

/-- Chunk `c` of a resident block, row `j`: row `512 c + j` of the block. -/
theorem chunk_apply (x : Vec Ideal S1x4096x256 .bf16) (c : Chunk) (u : Fin 1) (j : Fin 512) (e : Fin 256) :
    chunk x c (ix3 u j e) = x (ix3 (0 : Fin 1) (keyOf c j) e) := by
  unfold chunk
  show x ((Rect.unit (s := S1x4096x256) (k1_off1 c) S1x512x256.size (k1_off1_inb c)).idx (ix3 u j e)) = _
  have ho := Gen.k1_off1_eq c
  have h0 : k1_off1 c 0 = 0 := by rw [ho]; rfl
  have h1 : k1_off1 c 1 = 512 * c.val := by rw [ho]; rfl
  have h2 : k1_off1 c 2 = 0 := by rw [ho]; rfl
  refine congrArg x (funext fun a => Fin.ext ?_)
  match a with
  | ⟨0, _⟩ => show k1_off1 c 0 + 1 * u.val = 0; rw [h0]; omega
  | ⟨1, _⟩ => show k1_off1 c 1 + 1 * j.val = 512 * c.val + j.val; rw [h1, Nat.one_mul]
  | ⟨2, _⟩ => show k1_off1 c 2 + 1 * e.val = e.val; rw [h2, Nat.one_mul, Nat.zero_add]

/-- The supremum over the (chunk, row) pairs is the supremum over the keys. -/
theorem sup_keys (f : Fin 4096 → EReal) :
    (Finset.univ : Finset (Chunk × Fin 512)).sup (fun p => f (keyEquiv p)) = (Finset.univ : Finset (Fin 4096)).sup f := by
  rw [← Finset.map_univ_equiv keyEquiv, Finset.sup_map]; rfl

/-- The row maximum taken from `-∞` is the supremum. -/
theorem rowMax_eq_sup (f : Fin 4096 → EReal) : rowMax f = (Finset.univ : Finset (Fin 4096)).sup f := by
  unfold rowMax; rw [fold_max_eq_sup]; exact max_eq_right bot_le

section Block

variable (Q K Vv : Rows) (Qr Kr Vr : Fin 4 → Fin 4096 → Fin 256 → ℝ)
  (hQ : ∀ b i e, Q b i e = (Qr b i e : EReal)) (hK : ∀ b i e, K b i e = (Kr b i e : EReal))
  (hV : ∀ b i e, Vv b i e = (Vr b i e : EReal))
  (b qb : Fin 4) (x0 : Vec Ideal S1x1024x256 .bf16) (x1 x2 : Vec Ideal S1x4096x256 .bf16)
  (h0 : ∀ r e, x0 (ix3 (0 : Fin 1) r e) = Q b (rowOf qb r) e)
  (h1 : ∀ key e, x1 (ix3 (0 : Fin 1) key e) = K b key e)
  (h2 : ∀ key d, x2 (ix3 (0 : Fin 1) key d) = Vv b key d)

include hQ hK hV h0 h1 h2 in
/-- The block's entry `(r, d)`. -/
theorem block_entry (u : Fin 1) (r : Fin 1024) (d : Fin 256) :
    k1_pay7 (F := Ideal) (state (k1_pay4 x0) (chunk x1) (chunk x2) k1_t1_loop.trips).2.2
        (state (k1_pay4 x0) (chunk x1) (chunk x2) k1_t1_loop.trips).2.1 (ix3 u r d)
      = softmaxOut Q K Vv b (rowOf qb r) d := by
  have hq : ∀ r e, k1_pay4 x0 (ix2 r e) = ((Qr b (rowOf qb r) e : ℝ) : EReal) := fun r e => by
    rw [pay4_apply, h0, hQ]
  have hk : ∀ (c : Chunk) (j : Fin 512) (e : Fin 256), chunk x1 c (ix3 (0 : Fin 1) j e) = ((Kr b (keyOf c j) e : ℝ) : EReal) :=
    fun c j e => by rw [chunk_apply, h1, hK]
  have hv : ∀ (c : Chunk) (j : Fin 512) (d : Fin 256), chunk x2 c (ix3 (0 : Fin 1) j d) = ((Vr b (keyOf c j) d : ℝ) : EReal) :=
    fun c j d => by rw [chunk_apply, h2, hV]
  rw [out_row (k1_pay4 x0) (chunk x1) (chunk x2) (fun r e => Qr b (rowOf qb r) e) (fun c j e => Kr b (keyOf c j) e)
    (fun c j d => Vr b (keyOf c j) d) hq hk hv u r d]
  have hs : s (k1_pay4 x0) (chunk x1) r = fun p => score Q K b (rowOf qb r) (keyEquiv p) := funext fun p => by
    unfold s sc score scale
    refine congrArg₂ (· * ·) (Finset.sum_congr rfl fun e _ => ?_) rfl
    rw [pay4_apply, h0, chunk_apply, h1]; rfl
  have hw : w (chunk x2) d = fun p => Vv b (keyEquiv p) d := funext fun p => by
    unfold w; rw [chunk_apply, h2]; rfl
  rw [hs, hw, sup_keys (score Q K b (rowOf qb r))]
  unfold softmaxOut
  rw [rowMax_eq_sup]
  rw [← Equiv.sum_comp keyEquiv (fun j => Ideal.div (Ideal.exp (score Q K b (rowOf qb r) j - Finset.univ.sup (score Q K b (rowOf qb r))))
      (0 + ∑ j' : Fin 4096, Ideal.exp (score Q K b (rowOf qb r) j' - Finset.univ.sup (score Q K b (rowOf qb r)))) * Vv b j d)]
  rw [← Equiv.sum_comp keyEquiv (fun j' => Ideal.exp (score Q K b (rowOf qb r) j' - Finset.univ.sup (score Q K b (rowOf qb r))))]

end Block

end Cert.KernelIdeal.FlashFinal

end
-- ==== Proof.FlashBlocks.lean ====
/-
  The second region (attention over the projected rows), from blocks to arrays.

  The region's grid is 4 × 4: point t has a batch coordinate b and a query-block coordinate qi.  Its first window is
  the block of 1024 query rows (b, 1024·qi + r, ·), its second and third windows are all 4096 key and value rows of
  batch b, and its output window is the block of 1024 result rows (b, 1024·qi + r, ·).  Here each input block is read
  off its array at explicit coordinates, and the sixteen output blocks are shown to tile the result array: if what
  every point leaves in its output block is one function G of the array index, the array ends holding G.
-/
import proofs.«159504_j10333691314194_2_alg».proof.Proof.Gen.KernelIdeal.Frame
import Idealize.ShloMosaic.Lib.Pipeline.Value
import Idealize.ShloMosaic.Lib.ValueIdx

noncomputable section

namespace Cert.KernelIdeal.FlashBlocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The coordinates of a grid point -/

/-- The batch of point t. -/
abbrev batchOf (t : Fin cfg1.N) : Fin 4 := grid1.coords t 0
/-- The query block of point t. -/
abbrev qblockOf (t : Fin cfg1.N) : Fin 4 := grid1.coords t 1
/-- Row r of query block q, as a row of the array: 1024·q + r. -/
abbrev rowOf (q : Fin 4) (r : Fin 1024) : Fin 4096 := ⟨1024 * q.val + r.val, by have := q.isLt; have := r.isLt; omega⟩

/-- The printed index maps, decided over the sixteen points: the query and output blocks sit at (b, qi, 0), the key
    and value blocks at (b, 0, 0). -/
theorem idx_facts : ∀ t : Fin cfg1.N,
    win1_0.index t (0 : Fin 3) = (grid1.coords t 0).val ∧ win1_0.index t (1 : Fin 3) = (grid1.coords t 1).val
    ∧ win1_0.index t (2 : Fin 3) = 0
    ∧ win1_1.index t (0 : Fin 3) = (grid1.coords t 0).val ∧ win1_1.index t (1 : Fin 3) = 0 ∧ win1_1.index t (2 : Fin 3) = 0
    ∧ win1_2.index t (0 : Fin 3) = (grid1.coords t 0).val ∧ win1_2.index t (1 : Fin 3) = 0 ∧ win1_2.index t (2 : Fin 3) = 0
    ∧ win1_3.index t (0 : Fin 3) = (grid1.coords t 0).val ∧ win1_3.index t (1 : Fin 3) = (grid1.coords t 1).val
    ∧ win1_3.index t (2 : Fin 3) = 0 :=
  (by decide +kernel : ∀ t : Fin grid1.N, _)

/-- Every block position (b, q, 0) of the result array is some point's. -/
theorem idx_onto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-! ## The result array from its sixteen blocks -/

/-- An index of the result array is in point t's output block iff each coordinate is in the block's range. -/
theorem mem_out_blk (t : Fin cfg1.N) (i : S4x4096x256.Idx) :
    i ∈ ((cfg1.win 3).blk t).view.set ↔ ∀ a : Fin 3, win1_3.index t a * S1x1024x256.size a ≤ (i a).val
      ∧ (i a).val < win1_3.index t a * S1x1024x256.size a + S1x1024x256.size a := by
  show i ∈ ((View.whole main_v8).slice (win1_3.rect t)).set ↔ _
  rw [View.set_slice_whole, Rect.mem_set_unit]
  exact Iff.rfl

/-- Every index (b, i, d) of the result array is in the output block of the point (b, i / 1024). -/
theorem out_cover (i : S4x4096x256.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 256 := (i 2).isLt
  obtain ⟨t, ht⟩ := idx_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_out_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 256 ≤ (i 2).val ∧ (i 2).val < win1_3.index t (2 : Fin 3) * 256 + 256; omega

/-- The array index of the output block's element (0, r, d) at point t. -/
theorem out_emb (t : Fin cfg1.N) (j : S1x1024x256.Idx) :
    (((cfg1.win 3).blk t).view.emb j : S4x4096x256.Idx) = ix3 (batchOf t) (rowOf (qblockOf t) (j 1)) (j 2) := by
  obtain ⟨-, -, -, -, -, -, -, -, -, e0, e1, e2⟩ := idx_facts t
  have hj0 : (j 0).val < 1 := (j 0).isLt
  funext a; apply Fin.ext
  match a with
  | ⟨0, _⟩ => show win1_3.index t (0 : Fin 3) * 1 + 1 * (j 0).val = (grid1.coords t 0).val; omega
  | ⟨1, _⟩ => show win1_3.index t (1 : Fin 3) * 1024 + 1 * (j 1).val = 1024 * (grid1.coords t 1).val + (j 1).val; omega
  | ⟨2, _⟩ => show win1_3.index t (2 : Fin 3) * 256 + 1 * (j 2).val = (j 2).val; omega

/-- THE RESULT ARRAY: if what every point t leaves in its output block is G at the block's place in the array —
    element (0, r, d) of the block is G (b, 1024·qi + r, d) —, the array ends holding G. -/
theorem arr_eq_of_blocks (c : Dev nD) (G : S4x4096x256.Idx → EReal)
    (hG : ∀ (t : Fin cfg1.N) (r : Fin 1024) (d : Fin 256),
      outsAt1 V c t (ix3 (0 : Fin 1) r d) = G (ix3 (batchOf t) (rowOf (qblockOf t) r) d)) :
    (dat1 V c).arrAt 3 cfg1.N = G := by
  refine (dat1 V c).arrAt_eq_of_cover 3 G (fun t _ => ?_) out_cover
  show (cfg1.win 3).cut (grid1.coords t) ((dat1 V c).after 3 t) = _
  rw [after1_3]
  funext j
  show outsAt1 V c t j = G (((cfg1.win 3).blk t).view.emb j)
  rw [out_emb]
  have hj : j = ix3 (0 : Fin 1) (j 1) (j 2) := by
    funext a; match a with
    | ⟨0, _⟩ => exact Fin.ext (by have : (j 0).val < 1 := (j 0).isLt; show (j 0).val = 0; omega)
    | ⟨1, _⟩ => rfl
    | ⟨2, _⟩ => rfl
  rw [hj]
  exact hG t (j 1) (j 2)

/-! ## The input blocks read off their arrays -/

/-- The array index of the query block's element j at point t: (b, 1024·qi + j₁, j₂). -/
theorem q_emb (t : Fin cfg1.N) (j : S1x1024x256.Idx) :
    (((cfg1.win 0).blk t).view.emb j : S4x4096x256.Idx) = ix3 (batchOf t) (rowOf (qblockOf t) (j 1)) (j 2) := by
  obtain ⟨e0, e1, e2, -⟩ := idx_facts t
  have hj0 : (j 0).val < 1 := (j 0).isLt
  funext a; apply Fin.ext
  match a with
  | ⟨0, _⟩ => show win1_0.index t (0 : Fin 3) * 1 + 1 * (j 0).val = (grid1.coords t 0).val; omega
  | ⟨1, _⟩ => show win1_0.index t (1 : Fin 3) * 1024 + 1 * (j 1).val = 1024 * (grid1.coords t 1).val + (j 1).val; omega
  | ⟨2, _⟩ => show win1_0.index t (2 : Fin 3) * 256 + 1 * (j 2).val = (j 2).val; omega

/-- The array index of the key block's element j at point t: (b, j₁, j₂). -/
theorem k_emb (t : Fin cfg1.N) (j : S1x4096x256.Idx) :
    (((cfg1.win 1).blk t).view.emb j : S4x4096x256.Idx) = ix3 (batchOf t) (j 1) (j 2) := by
  obtain ⟨-, -, -, e0, e1, e2, -⟩ := idx_facts t
  have hj0 : (j 0).val < 1 := (j 0).isLt
  funext a; apply Fin.ext
  match a with
  | ⟨0, _⟩ => show win1_1.index t (0 : Fin 3) * 1 + 1 * (j 0).val = (grid1.coords t 0).val; omega
  | ⟨1, _⟩ => show win1_1.index t (1 : Fin 3) * 4096 + 1 * (j 1).val = (j 1).val; omega
  | ⟨2, _⟩ => show win1_1.index t (2 : Fin 3) * 256 + 1 * (j 2).val = (j 2).val; omega

/-- The array index of the value block's element j at point t: (b, j₁, j₂). -/
theorem v_emb (t : Fin cfg1.N) (j : S1x4096x256.Idx) :
    (((cfg1.win 2).blk t).view.emb j : S4x4096x256.Idx) = ix3 (batchOf t) (j 1) (j 2) := by
  obtain ⟨-, -, -, -, -, -, e0, e1, e2, -⟩ := idx_facts t
  have hj0 : (j 0).val < 1 := (j 0).isLt
  funext a; apply Fin.ext
  match a with
  | ⟨0, _⟩ => show win1_2.index t (0 : Fin 3) * 1 + 1 * (j 0).val = (grid1.coords t 0).val; omega
  | ⟨1, _⟩ => show win1_2.index t (1 : Fin 3) * 4096 + 1 * (j 1).val = (j 1).val; omega
  | ⟨2, _⟩ => show win1_2.index t (2 : Fin 3) * 256 + 1 * (j 2).val = (j 2).val; omega

/-- The query block at point t, element by element: rows 1024·qi … 1024·qi + 1023 of batch b of the query array. -/
theorem q_block_at (c : Dev nD) (t : Fin cfg1.N) (j : S1x1024x256.Idx) :
    (iblk1 V c 0 t : S1x1024x256.Idx → EReal) j
      = (V c main_v5 : S4x4096x256.Idx → EReal) (ix3 (batchOf t) (rowOf (qblockOf t) (j 1)) (j 2)) := by
  show (V c main_v5 : S4x4096x256.Idx → EReal) (((cfg1.win 0).blk t).view.emb j) = _
  rw [q_emb]
  rfl

/-- The key block at point t, element by element: all rows of batch b of the key array. -/
theorem k_block_at (c : Dev nD) (t : Fin cfg1.N) (j : S1x4096x256.Idx) :
    (iblk1 V c 1 t : S1x4096x256.Idx → EReal) j = (V c main_v6 : S4x4096x256.Idx → EReal) (ix3 (batchOf t) (j 1) (j 2)) := by
  show (V c main_v6 : S4x4096x256.Idx → EReal) (((cfg1.win 1).blk t).view.emb j) = _
  rw [k_emb]
  rfl

/-- The value block at point t, element by element: all rows of batch b of the value array. -/
theorem v_block_at (c : Dev nD) (t : Fin cfg1.N) (j : S1x4096x256.Idx) :
    (iblk1 V c 2 t : S1x4096x256.Idx → EReal) j = (V c main_v7 : S4x4096x256.Idx → EReal) (ix3 (batchOf t) (j 1) (j 2)) := by
  show (V c main_v7 : S4x4096x256.Idx → EReal) (((cfg1.win 2).blk t).view.emb j) = _
  rw [v_emb]
  rfl

/-- The same three at explicit coordinates. -/
theorem q_block (c : Dev nD) (t : Fin cfg1.N) (r : Fin 1024) (e : Fin 256) :
    (iblk1 V c 0 t : S1x1024x256.Idx → EReal) (ix3 (0 : Fin 1) r e)
      = (V c main_v5 : S4x4096x256.Idx → EReal) (ix3 (batchOf t) (rowOf (qblockOf t) r) e) :=
  q_block_at V c t (ix3 (0 : Fin 1) r e)

theorem k_block (c : Dev nD) (t : Fin cfg1.N) (key : Fin 4096) (e : Fin 256) :
    (iblk1 V c 1 t : S1x4096x256.Idx → EReal) (ix3 (0 : Fin 1) key e)
      = (V c main_v6 : S4x4096x256.Idx → EReal) (ix3 (batchOf t) key e) :=
  k_block_at V c t (ix3 (0 : Fin 1) key e)

theorem v_block (c : Dev nD) (t : Fin cfg1.N) (key : Fin 4096) (e : Fin 256) :
    (iblk1 V c 2 t : S1x4096x256.Idx → EReal) (ix3 (0 : Fin 1) key e)
      = (V c main_v7 : S4x4096x256.Idx → EReal) (ix3 (batchOf t) key e) :=
  v_block_at V c t (ix3 (0 : Fin 1) key e)

end Cert.KernelIdeal.FlashBlocks

end
-- ==== Proof.ProjPay.lean ====
/-
  The value one grid step of the projection stores, at an index.

  A step holds 1024 token rows `x` (a `[1024, 256]` block), one transposed weight matrix `wT` (`[256, 256]`, entry
  `(d, e)` is the weight from input feature `d` to output feature `e`) and one bias `b` (`[256]`).  The stored block is
  `x · wT` accumulated from zero, plus the bias repeated over the rows; the changes of float format on the way are the
  identity on extended reals.  So the entry at row `r`, feature `e` is `(∑ d, x[r, d] · wT[d, e]) + b[e]`.
-/
import proofs.«159504_j10333691314194_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.ProjValue

open Cert.KernelIdeal Cert.KernelIdeal.Gen Idealize.ShloMosaic Idealize.ShloMosaic.ValueIdx

/-- A bias `[256]` viewed as one row `[1, 256]` and repeated over 1024 rows reads, at `(r, e)`, its entry `e`. -/
theorem biasRows_apply (b : FVec Ideal S256 .f32) (h1 : S256.ShapeCasts S1x256) (h2 : S1x256.Broadcasts S1024x256)
    (r : Fin 1024) (e : Fin 256) :
    broadcastTo S1024x256 (shapeCast S1x256 b h1) h2 (ix2 r e) = b (ix1 e) := by
  refine (broadcastTo_apply _ h2 (ix2 r e) (ix2 (0 : Fin 1) e) ?_).trans ?_
  · intro a
    match a with
    | ⟨0, _⟩ => show (0 : ℕ) = if (1 : ℕ) = 1 then 0 else _; rw [if_pos rfl]
    | ⟨1, _⟩ => show e.val = if (256 : ℕ) = 1 then 0 else e.val; rw [if_neg (by decide)]
  · refine shapeCast_apply b h1 (ix2 (0 : Fin 1) e) (ix1 e) ?_
    rw [Shape.rowMajor_val_one, Shape.rowMajor_val_two]
    show e.val = 0 * 256 + e.val
    omega

local notation "DD" => dot_S1024x256_S256x256_S1024x256_1_0_0_1_n_n

/-- The left operand's row coordinate is the output's row. -/
theorem lhs_row (j : S1024x256.Idx) (q : (DD).contr.Idx) : ((DD).lhsIdx j q 0).val = (j 0).val := by
  unfold DotDims.lhsIdx
  rw [dif_neg (show ¬(0 : Fin S1024x256.rank) ∈ (DD).lhsBatch by decide),
    dif_pos (show (0 : Fin S1024x256.rank) ∈ (DD).lhsNonContracting by decide)]
  rfl
/-- The left operand's column coordinate is the contraction position. -/
theorem lhs_col (j : S1024x256.Idx) (q : (DD).contr.Idx) : ((DD).lhsIdx j q 1).val = (q ⟨0, by decide⟩).val :=
  (DD).lhsIdx_val_of_single rfl j q
/-- The right operand's row coordinate is the contraction position. -/
theorem rhs_row (j : S1024x256.Idx) (q : (DD).contr.Idx) : ((DD).rhsIdx j q 0).val = (q ⟨0, by decide⟩).val :=
  (DD).rhsIdx_val_of_single rfl j q
/-- The right operand's column coordinate is the output's column. -/
theorem rhs_col (j : S1024x256.Idx) (q : (DD).contr.Idx) : ((DD).rhsIdx j q 1).val = (j 1).val := by
  unfold DotDims.rhsIdx
  rw [dif_neg (show ¬(1 : Fin S256x256.rank) ∈ (DD).rhsBatch by decide),
    dif_pos (show (1 : Fin S256x256.rank) ∈ (DD).rhsNonContracting by decide)]
  rfl

/-- The matrix product into a zero accumulator, at `(r, e)`: the sum over the 256 shared features. -/
theorem matmul_apply_ix (x : FVec Ideal S1024x256 .bf16) (w : FVec Ideal S256x256 .bf16) (r : Fin 1024) (e : Fin 256) :
    FloatOps.matmul DD none x w (constant S1024x256 .f32 0x00000000#32) (ix2 r e)
      = ∑ d : Fin 256, x (ix2 r d) * w (ix2 d e) := by
  rw [Ideal.matmul_constant_zero_apply, ← Equiv.sum_comp (contrEquiv1 DD 256 rfl rfl).symm]
  refine Finset.sum_congr rfl fun d _ => ?_
  have hd := contrEquiv1_symm_val DD 256 rfl rfl d
  have el : (DD).lhsIdx (ix2 r e) ((contrEquiv1 DD 256 rfl rfl).symm d) = ix2 r d := funext fun a => Fin.ext (by
    match a with
    | ⟨0, _⟩ => exact lhs_row _ _
    | ⟨1, _⟩ => exact (lhs_col _ _).trans hd)
  have er : (DD).rhsIdx (ix2 r e) ((contrEquiv1 DD 256 rfl rfl).symm d) = ix2 d e := funext fun a => Fin.ext (by
    match a with
    | ⟨0, _⟩ => exact (rhs_row _ _).trans hd
    | ⟨1, _⟩ => exact rhs_col _ _)
  rw [el, er]

/-- The stored value of the first output at `(r, e)`. -/
theorem pay2_apply (x : Vec Ideal S1024x256 .f32) (wT : Vec Ideal S256x256 .f32) (b : Vec Ideal S256 .f32)
    (r : Fin 1024) (e : Fin 256) :
    k0_pay2 (F := Ideal) x wT b (ix2 r e) = (∑ d : Fin 256, x (ix2 r d) * wT (ix2 d e)) + b (ix1 e) := by
  unfold k0_pay2 k0_pay1
  simp only [shapeCast_self]
  show FloatOps.matmul (F := Ideal) DD none _ _ (constant (F := Ideal) S1024x256 .f32 0x00000000#32) (ix2 r e) + _ = _
  refine congrArg₂ (· + ·) ((matmul_apply_ix _ _ r e).trans ?_) (biasRows_apply b _ _ r e)
  rfl

/-- The second and third outputs are the same function of their own weight and bias blocks. -/
theorem pay3_apply (x : Vec Ideal S1024x256 .f32) (wT : Vec Ideal S256x256 .f32) (b : Vec Ideal S256 .f32)
    (r : Fin 1024) (e : Fin 256) :
    k0_pay3 (F := Ideal) x wT b (ix2 r e) = (∑ d : Fin 256, x (ix2 r d) * wT (ix2 d e)) + b (ix1 e) :=
  pay2_apply x wT b r e
theorem pay4_apply (x : Vec Ideal S1024x256 .f32) (wT : Vec Ideal S256x256 .f32) (b : Vec Ideal S256 .f32)
    (r : Fin 1024) (e : Fin 256) :
    k0_pay4 (F := Ideal) x wT b (ix2 r e) = (∑ d : Fin 256, x (ix2 r d) * wT (ix2 d e)) + b (ix1 e) :=
  pay2_apply x wT b r e

/-- One projected entry by coordinates, over the whole `[16384, 256]` token array `X`, a transposed weight matrix `WT` and a
    bias `B`: `(∑ d, X[r, d] · WT[d, e]) + B[e]`. -/
def projRow (X : S16384x256.Idx → EReal) (WT : S256x256.Idx → EReal) (B : S256.Idx → EReal) (r : Fin 16384) (e : Fin 256) : EReal :=
  (∑ d : Fin 256, X (ix2 r d) * WT (ix2 d e)) + B (ix1 e)

/-- The same as an array `[16384, 256]`. -/
def projArr (X : S16384x256.Idx → EReal) (WT : S256x256.Idx → EReal) (B : S256.Idx → EReal) : S16384x256.Idx → EReal :=
  fun i => projRow X WT B (i 0) (i 1)

end Cert.KernelIdeal.ProjValue

end
-- ==== Proof.ProjBlock.lean ====
/-
  What one grid step of the projection writes back, as a block of one whole-array function, and the three arrays after
  the sixteen steps.

  Step `t` of the 16 holds rows `1024·t … 1024·t + 1023` of the `[16384, 256]` token array, and the whole transposed
  weight matrix and bias of each layer.  So the block it writes back for a layer is the block, at the same rows, of the
  array whose entry `(r, e)` is `(∑ d, X[r, d] · WT[d, e]) + B[e]`.  Row `r` lies in the block of step `r / 1024`, so
  the sixteen blocks cover the array and the array ends as that function everywhere.
-/
import proofs.«159504_j10333691314194_2_alg».proof.Proof.Gen.KernelIdeal.Frame
import proofs.«159504_j10333691314194_2_alg».proof.Proof.ProjPay

set_option maxRecDepth 16384

noncomputable section

open scoped BigOperators

namespace Cert.KernelIdeal.ProjValue

open Cert.KernelIdeal Cert.KernelIdeal.Gen Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The printed index maps over the 16 steps: the token block and the three output blocks sit at block row `t`, column
    block 0; the weight and bias blocks are the whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b))

/-! ## Output window 7: the first layer -/

/-- WHAT STEP `t` WRITES BACK for the first layer is block `t` of the projected array. -/
theorem flushed7_eq (c : Dev nD) (t : Fin cfg0.N) :
    (dat0 V c).flushed 7 t = ((cfg0.win 7).blk t).view.read (Elt Ideal)
      (projArr (V c main_v0) (V c main_v1) (V c main_arg2)) := by
  show (cfg0.win 7).cut (grid0.coords t) ((dat0 V c).after 7 t) = _
  rw [after0_7]
  unfold out0_7
  rw [View.canon_unit_zero hz2]
  simp only [View.ld_unit_zero (S := S1024x256) hz2, View.ld_unit_zero (S := S256x256) hz2, View.ld_unit_zero (S := S256) hz1]
  obtain ⟨e0, e1, e2, e3, e4, e5, e6, e7, e8, e9, e10, e11, e12, e13, e14, e15, e16⟩ := idx_facts t
  funext j
  obtain ⟨r, e, rfl⟩ : ∃ (r : Fin 1024) (e : Fin 256), j = ix2 r e := ⟨j 0, j 1, eq_ix2 j⟩
  show k0_pay2 (F := Ideal) (iblk0 V c 0 t) (iblk0 V c 1 t) (iblk0 V c 2 t) (ix2 r e)
    = projArr (V c main_v0) (V c main_v1) (V c main_arg2) (((cfg0.win 7).blk t).view.emb (ix2 r e))
  refine (pay2_apply (iblk0 V c 0 t) (iblk0 V c 1 t) (iblk0 V c 2 t) r e).trans ?_
  have ht : t.val < 16 := lt_of_lt_of_eq t.isLt N_0
  obtain ⟨R, hR⟩ : ∃ R : Fin 16384, R.val = t.val * 1024 + r.val := ⟨⟨t.val * 1024 + r.val, by omega⟩, rfl⟩
  have hout : ((cfg0.win 7).blk t).view.emb (ix2 r e) = ix2 R e := by
    funext a; apply Fin.ext
    match a with
    | ⟨0, _⟩ => show win0_7.index t (0 : Fin 2) * 1024 + 1 * r.val = R.val; omega
    | ⟨1, _⟩ => show win0_7.index t (1 : Fin 2) * 256 + 1 * e.val = e.val; omega
  rw [hout]
  show _ = projRow (V c main_v0) (V c main_v1) (V c main_arg2) R e
  unfold projRow
  refine congrArg₂ (· + ·) (Finset.sum_congr rfl fun d _ => congrArg₂ (· * ·) ?_ ?_) ?_
  · show V c main_v0 (((cfg0.win 0).blk t).view.emb (ix2 r d)) = V c main_v0 (ix2 R d)
    refine congrArg (V c main_v0) ?_
    funext a; apply Fin.ext
    match a with
    | ⟨0, _⟩ => show win0_0.index t (0 : Fin 2) * 1024 + 1 * r.val = R.val; omega
    | ⟨1, _⟩ => show win0_0.index t (1 : Fin 2) * 256 + 1 * d.val = d.val; omega
  · show V c main_v1 (((cfg0.win 1).blk t).view.emb (ix2 d e)) = V c main_v1 (ix2 d e)
    refine congrArg (V c main_v1) ?_
    funext a; apply Fin.ext
    match a with
    | ⟨0, _⟩ => show win0_1.index t (0 : Fin 2) * 256 + 1 * d.val = d.val; omega
    | ⟨1, _⟩ => show win0_1.index t (1 : Fin 2) * 256 + 1 * e.val = e.val; omega
  · show V c main_arg2 (((cfg0.win 2).blk t).view.emb (ix1 e)) = V c main_arg2 (ix1 e)
    refine congrArg (V c main_arg2) ?_
    funext a; apply Fin.ext
    match a with
    | ⟨0, _⟩ => show win0_2.index t (0 : Fin 1) * 256 + 1 * e.val = e.val; omega

/-- An index of the array is in step `t`'s block iff each coordinate is in the block's range on its axis. -/
theorem mem_blk7 (t : Fin cfg0.N) (i : S16384x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v4_0).slice (win0_7.rect t)).set ↔ _
  rw [View.set_slice_whole, Rect.mem_set_unit]
  exact Iff.rfl

/-- Row `r` of the array lies in the block of step `r / 1024`: the sixteen blocks cover the array. -/
theorem cover7 (i : S16384x256.Idx) :
    ∃ t : Fin cfg0.N, (cfg0.win 7).flush t = true ∧ i ∈ ((cfg0.win 7).blk t).view.set := by
  have hi0 : (i 0).val < 16384 := (i 0).isLt
  have hi1 : (i 1).val < 256 := (i 1).isLt
  obtain ⟨t, htv⟩ : ∃ t : Fin cfg0.N, t.val = (i 0).val / 1024 :=
    ⟨⟨(i 0).val / 1024, lt_of_lt_of_eq (show (i 0).val / 1024 < 16 by omega) N_0.symm⟩, rfl⟩
  obtain ⟨e0, e1, e2, e3, e4, e5, e6, e7, e8, e9, e10, e11, e12, e13, e14, e15, e16⟩ := idx_facts t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

/-- THE FIRST LAYER'S ARRAY after the sixteen steps: the projected array of the arrays the region finds. -/
theorem final7 (c : Dev nD) :
    (dat0 V c).arrAt 7 cfg0.N = projArr (V c main_v0) (V c main_v1) (V c main_arg2) :=
  (dat0 V c).arrAt_eq_of_cover 7 _ (fun t _ => flushed7_eq V c t) cover7

/-! ## Output window 8: the second layer -/

/-- WHAT STEP `t` WRITES BACK for the second layer is block `t` of the projected array. -/
theorem flushed8_eq (c : Dev nD) (t : Fin cfg0.N) :
    (dat0 V c).flushed 8 t = ((cfg0.win 8).blk t).view.read (Elt Ideal)
      (projArr (V c main_v0) (V c main_v2) (V c main_arg4)) := by
  show (cfg0.win 8).cut (grid0.coords t) ((dat0 V c).after 8 t) = _
  rw [after0_8]
  unfold out0_8
  rw [View.canon_unit_zero hz2]
  simp only [View.ld_unit_zero (S := S1024x256) hz2, View.ld_unit_zero (S := S256x256) hz2, View.ld_unit_zero (S := S256) hz1]
  obtain ⟨e0, e1, e2, e3, e4, e5, e6, e7, e8, e9, e10, e11, e12, e13, e14, e15, e16⟩ := idx_facts t
  funext j
  obtain ⟨r, e, rfl⟩ : ∃ (r : Fin 1024) (e : Fin 256), j = ix2 r e := ⟨j 0, j 1, eq_ix2 j⟩
  show k0_pay3 (F := Ideal) (iblk0 V c 0 t) (iblk0 V c 3 t) (iblk0 V c 4 t) (ix2 r e)
    = projArr (V c main_v0) (V c main_v2) (V c main_arg4) (((cfg0.win 8).blk t).view.emb (ix2 r e))
  refine (pay3_apply (iblk0 V c 0 t) (iblk0 V c 3 t) (iblk0 V c 4 t) r e).trans ?_
  have ht : t.val < 16 := lt_of_lt_of_eq t.isLt N_0
  obtain ⟨R, hR⟩ : ∃ R : Fin 16384, R.val = t.val * 1024 + r.val := ⟨⟨t.val * 1024 + r.val, by omega⟩, rfl⟩
  have hout : ((cfg0.win 8).blk t).view.emb (ix2 r e) = ix2 R e := by
    funext a; apply Fin.ext
    match a with
    | ⟨0, _⟩ => show win0_8.index t (0 : Fin 2) * 1024 + 1 * r.val = R.val; omega
    | ⟨1, _⟩ => show win0_8.index t (1 : Fin 2) * 256 + 1 * e.val = e.val; omega
  rw [hout]
  show _ = projRow (V c main_v0) (V c main_v2) (V c main_arg4) R e
  unfold projRow
  refine congrArg₂ (· + ·) (Finset.sum_congr rfl fun d _ => congrArg₂ (· * ·) ?_ ?_) ?_
  · show V c main_v0 (((cfg0.win 0).blk t).view.emb (ix2 r d)) = V c main_v0 (ix2 R d)
    refine congrArg (V c main_v0) ?_
    funext a; apply Fin.ext
    match a with
    | ⟨0, _⟩ => show win0_0.index t (0 : Fin 2) * 1024 + 1 * r.val = R.val; omega
    | ⟨1, _⟩ => show win0_0.index t (1 : Fin 2) * 256 + 1 * d.val = d.val; omega
  · show V c main_v2 (((cfg0.win 3).blk t).view.emb (ix2 d e)) = V c main_v2 (ix2 d e)
    refine congrArg (V c main_v2) ?_
    funext a; apply Fin.ext
    match a with
    | ⟨0, _⟩ => show win0_3.index t (0 : Fin 2) * 256 + 1 * d.val = d.val; omega
    | ⟨1, _⟩ => show win0_3.index t (1 : Fin 2) * 256 + 1 * e.val = e.val; omega
  · show V c main_arg4 (((cfg0.win 4).blk t).view.emb (ix1 e)) = V c main_arg4 (ix1 e)
    refine congrArg (V c main_arg4) ?_
    funext a; apply Fin.ext
    match a with
    | ⟨0, _⟩ => show win0_4.index t (0 : Fin 1) * 256 + 1 * e.val = e.val; omega

/-- An index of the array is in step `t`'s block iff each coordinate is in the block's range on its axis. -/
theorem mem_blk8 (t : Fin cfg0.N) (i : S16384x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v4_1).slice (win0_8.rect t)).set ↔ _
  rw [View.set_slice_whole, Rect.mem_set_unit]
  exact Iff.rfl

/-- Row `r` of the array lies in the block of step `r / 1024`: the sixteen blocks cover the array. -/
theorem cover8 (i : S16384x256.Idx) :
    ∃ t : Fin cfg0.N, (cfg0.win 8).flush t = true ∧ i ∈ ((cfg0.win 8).blk t).view.set := by
  have hi0 : (i 0).val < 16384 := (i 0).isLt
  have hi1 : (i 1).val < 256 := (i 1).isLt
  obtain ⟨t, htv⟩ : ∃ t : Fin cfg0.N, t.val = (i 0).val / 1024 :=
    ⟨⟨(i 0).val / 1024, lt_of_lt_of_eq (show (i 0).val / 1024 < 16 by omega) N_0.symm⟩, rfl⟩
  obtain ⟨e0, e1, e2, e3, e4, e5, e6, e7, e8, e9, e10, e11, e12, e13, e14, e15, e16⟩ := idx_facts t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 256 ≤ (i 1).val ∧ (i 1).val < win0_8.index t (1 : Fin 2) * 256 + 256; omega

/-- THE SECOND LAYER'S ARRAY after the sixteen steps: the projected array of the arrays the region finds. -/
theorem final8 (c : Dev nD) :
    (dat0 V c).arrAt 8 cfg0.N = projArr (V c main_v0) (V c main_v2) (V c main_arg4) :=
  (dat0 V c).arrAt_eq_of_cover 8 _ (fun t _ => flushed8_eq V c t) cover8

/-! ## Output window 9: the third layer -/

/-- WHAT STEP `t` WRITES BACK for the third layer is block `t` of the projected array. -/
theorem flushed9_eq (c : Dev nD) (t : Fin cfg0.N) :
    (dat0 V c).flushed 9 t = ((cfg0.win 9).blk t).view.read (Elt Ideal)
      (projArr (V c main_v0) (V c main_v3) (V c main_arg6)) := by
  show (cfg0.win 9).cut (grid0.coords t) ((dat0 V c).after 9 t) = _
  rw [after0_9]
  unfold out0_9
  rw [View.canon_unit_zero hz2]
  simp only [View.ld_unit_zero (S := S1024x256) hz2, View.ld_unit_zero (S := S256x256) hz2, View.ld_unit_zero (S := S256) hz1]
  obtain ⟨e0, e1, e2, e3, e4, e5, e6, e7, e8, e9, e10, e11, e12, e13, e14, e15, e16⟩ := idx_facts t
  funext j
  obtain ⟨r, e, rfl⟩ : ∃ (r : Fin 1024) (e : Fin 256), j = ix2 r e := ⟨j 0, j 1, eq_ix2 j⟩
  show k0_pay4 (F := Ideal) (iblk0 V c 0 t) (iblk0 V c 5 t) (iblk0 V c 6 t) (ix2 r e)
    = projArr (V c main_v0) (V c main_v3) (V c main_arg6) (((cfg0.win 9).blk t).view.emb (ix2 r e))
  refine (pay4_apply (iblk0 V c 0 t) (iblk0 V c 5 t) (iblk0 V c 6 t) r e).trans ?_
  have ht : t.val < 16 := lt_of_lt_of_eq t.isLt N_0
  obtain ⟨R, hR⟩ : ∃ R : Fin 16384, R.val = t.val * 1024 + r.val := ⟨⟨t.val * 1024 + r.val, by omega⟩, rfl⟩
  have hout : ((cfg0.win 9).blk t).view.emb (ix2 r e) = ix2 R e := by
    funext a; apply Fin.ext
    match a with
    | ⟨0, _⟩ => show win0_9.index t (0 : Fin 2) * 1024 + 1 * r.val = R.val; omega
    | ⟨1, _⟩ => show win0_9.index t (1 : Fin 2) * 256 + 1 * e.val = e.val; omega
  rw [hout]
  show _ = projRow (V c main_v0) (V c main_v3) (V c main_arg6) R e
  unfold projRow
  refine congrArg₂ (· + ·) (Finset.sum_congr rfl fun d _ => congrArg₂ (· * ·) ?_ ?_) ?_
  · show V c main_v0 (((cfg0.win 0).blk t).view.emb (ix2 r d)) = V c main_v0 (ix2 R d)
    refine congrArg (V c main_v0) ?_
    funext a; apply Fin.ext
    match a with
    | ⟨0, _⟩ => show win0_0.index t (0 : Fin 2) * 1024 + 1 * r.val = R.val; omega
    | ⟨1, _⟩ => show win0_0.index t (1 : Fin 2) * 256 + 1 * d.val = d.val; omega
  · show V c main_v3 (((cfg0.win 5).blk t).view.emb (ix2 d e)) = V c main_v3 (ix2 d e)
    refine congrArg (V c main_v3) ?_
    funext a; apply Fin.ext
    match a with
    | ⟨0, _⟩ => show win0_5.index t (0 : Fin 2) * 256 + 1 * d.val = d.val; omega
    | ⟨1, _⟩ => show win0_5.index t (1 : Fin 2) * 256 + 1 * e.val = e.val; omega
  · show V c main_arg6 (((cfg0.win 6).blk t).view.emb (ix1 e)) = V c main_arg6 (ix1 e)
    refine congrArg (V c main_arg6) ?_
    funext a; apply Fin.ext
    match a with
    | ⟨0, _⟩ => show win0_6.index t (0 : Fin 1) * 256 + 1 * e.val = e.val; omega

/-- An index of the array is in step `t`'s block iff each coordinate is in the block's range on its axis. -/
theorem mem_blk9 (t : Fin cfg0.N) (i : S16384x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v4_2).slice (win0_9.rect t)).set ↔ _
  rw [View.set_slice_whole, Rect.mem_set_unit]
  exact Iff.rfl

/-- Row `r` of the array lies in the block of step `r / 1024`: the sixteen blocks cover the array. -/
theorem cover9 (i : S16384x256.Idx) :
    ∃ t : Fin cfg0.N, (cfg0.win 9).flush t = true ∧ i ∈ ((cfg0.win 9).blk t).view.set := by
  have hi0 : (i 0).val < 16384 := (i 0).isLt
  have hi1 : (i 1).val < 256 := (i 1).isLt
  obtain ⟨t, htv⟩ : ∃ t : Fin cfg0.N, t.val = (i 0).val / 1024 :=
    ⟨⟨(i 0).val / 1024, lt_of_lt_of_eq (show (i 0).val / 1024 < 16 by omega) N_0.symm⟩, rfl⟩
  obtain ⟨e0, e1, e2, e3, e4, e5, e6, e7, e8, e9, e10, e11, e12, e13, e14, e15, e16⟩ := idx_facts t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 256 ≤ (i 1).val ∧ (i 1).val < win0_9.index t (1 : Fin 2) * 256 + 256; omega

/-- THE THIRD LAYER'S ARRAY after the sixteen steps: the projected array of the arrays the region finds. -/
theorem final9 (c : Dev nD) :
    (dat0 V c).arrAt 9 cfg0.N = projArr (V c main_v0) (V c main_v3) (V c main_arg6) :=
  (dat0 V c).arrAt_eq_of_cover 9 _ (fun t _ => flushed9_eq V c t) cover9

end Cert.KernelIdeal.ProjValue

end
-- ==== Proof.ProjRead.lean ====
/-
  The projected array, read through the reshapes and the transposes around the projection, is the linear layer.

  The tokens `x[b, s, ·]` enter as row `4096·b + s` of a `[16384, 256]` array and the result rows leave the same way; the
  weight matrix enters transposed, so `WT[d, e] = w[e, d]`.  Entry `(b, s, e)` of the reshaped result is therefore
  `(∑ d, x[b, s, d] · w[e, d]) + bias[e]`.
-/
import proofs.«159504_j10333691314194_2_alg».proof.Proof.ProjPay
import proofs.«159504_j10333691314194_2_alg».proof.Proof.Spec

noncomputable section

open scoped BigOperators

namespace Cert.KernelIdeal.ProjValue

open Cert.KernelIdeal Idealize.ShloMosaic Idealize.ShloMosaic.ValueIdx

theorem lin_read (x : S4x4096x256.Idx → EReal) (w : S256x256.Idx → EReal) (bias : S256.Idx → EReal)
    (h1 : S4x4096x256.ShapeCasts S16384x256) (h2 : S256x256.Transposes [1, 0] S256x256)
    (h3 : S16384x256.ShapeCasts S4x4096x256) (b : Fin 4) (s : Fin 4096) (e : Fin 256) :
    shapeCast S4x4096x256 (projArr (shapeCast S16384x256 x h1) (transpose S256x256 [1, 0] w h2) bias) h3 (ix3 b s e)
      = Cert.Attn.lin x w bias b s e := by
  obtain ⟨R, hR⟩ : ∃ R : Fin 16384, R.val = b.val * 4096 + s.val := ⟨⟨b.val * 4096 + s.val, by omega⟩, rfl⟩
  refine (shapeCast_apply _ h3 (ix3 b s e) (ix2 R e) ?_).trans ?_
  · rw [Shape.rowMajor_val_two, Shape.rowMajor_val_three]
    show R.val * 256 + e.val = (b.val * 4096 + s.val) * 256 + e.val
    rw [hR]
  show projRow _ _ _ R e = _
  unfold projRow Cert.Attn.lin
  refine congrArg₂ (· + ·) (Finset.sum_congr rfl fun d _ => congrArg₂ (· * ·) ?_ ?_) rfl
  · refine shapeCast_apply x h1 (ix2 R d) (ix3 b s d) ?_
    rw [Shape.rowMajor_val_two, Shape.rowMajor_val_three]
    show (b.val * 4096 + s.val) * 256 + d.val = R.val * 256 + d.val
    rw [hR]
  · exact transpose_apply [1, 0] w h2 (ix2 d e) (ix2 e d) (fun a => match a with | ⟨0, _⟩ => rfl | ⟨1, _⟩ => rfl)

end Cert.KernelIdeal.ProjValue

end
-- ==== Proof.ProjValue.lean ====
/-
  The three linear layers as the attention region finds them.

  Before the projection the tokens are reshaped to `[16384, 256]` and each weight matrix is transposed; the projection
  leaves, for each layer, the array `(∑ d, X[r, d] · WT[d, e]) + B[e]`; afterwards each array is reshaped back to
  `[4, 4096, 256]`.  Read through those reshapes and transposes, the array of each layer is the linear layer
  `(∑ d, x[b, s, d] · w[e, d]) + bias[e]` of the arguments.
-/
import proofs.«159504_j10333691314194_2_alg».proof.Proof.Gen.KernelIdeal.Frame
import proofs.«159504_j10333691314194_2_alg».proof.Proof.Spec
import proofs.«159504_j10333691314194_2_alg».proof.Proof.ProjBlock
import proofs.«159504_j10333691314194_2_alg».proof.Proof.ProjRead

set_option maxRecDepth 16384

noncomputable section

open scoped BigOperators

namespace Cert.KernelIdeal.ProjValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The token array as the projection finds it: the argument reshaped to `[16384, 256]`. -/
theorem entry_tokens (c : Dev nD) :
    (V1 m ρ c main_v0 : S16384x256.Idx → EReal)
      = shapeCast S16384x256 (m ((c : Thread nD τ).loc main_arg0)) shapeCasts_S4x4096x256_S16384x256 := by
  show StableHlo.after hostOps0 (W0 m ρ c) (Proc.devRef .tc main_v0) = _
  after_results
  rfl

/-- The first (query) layer's rows as region 1 finds them: the linear layer of the arguments. -/
theorem v5_eq (c : Dev nD) :
    (V3 m ρ c main_v5 : S4x4096x256.Idx → EReal)
      = fun j => Cert.Attn.lin (m ((c : Thread nD τ).loc main_arg0)) (m ((c : Thread nD τ).loc main_arg1)) (m ((c : Thread nD τ).loc main_arg2)) (j 0) (j 1) (j 2) := by
  have hout : (V3 m ρ c main_v5 : S4x4096x256.Idx → EReal)
      = shapeCast S4x4096x256 (V2 m ρ c main_v4_0) shapeCasts_S16384x256_S4x4096x256 := by
    show StableHlo.after hostOps1 (W2 m ρ c) (Proc.devRef .tc main_v5) = _
    after_results
    rfl
  have hmid : (V2 m ρ c main_v4_0 : S16384x256.Idx → EReal)
      = projArr (V1 m ρ c main_v0) (V1 m ρ c main_v1) (V1 m ρ c main_arg2) :=
    (hF0 m ρ c 7).symm.trans (final7 (V1 m ρ) c)
  have hw : (V1 m ρ c main_v1 : S256x256.Idx → EReal)
      = transpose S256x256 [1, 0] (m ((c : Thread nD τ).loc main_arg1)) transposes_S256x256_S256x256_1_0 := by
    show StableHlo.after hostOps0 (W0 m ρ c) (Proc.devRef .tc main_v1) = _
    after_results
  have hb : (V1 m ρ c main_arg2 : S256.Idx → EReal) = m ((c : Thread nD τ).loc main_arg2) := by
    show StableHlo.after hostOps0 (W0 m ρ c) (Proc.devRef .tc main_arg2) = _
    after_results
  rw [hout, hmid, entry_tokens m ρ c, hw, hb]
  funext j
  obtain ⟨b, s, e, rfl⟩ : ∃ (b : Fin 4) (s : Fin 4096) (e : Fin 256), j = ix3 b s e := ⟨j 0, j 1, j 2, eq_ix3 j⟩
  exact lin_read _ _ _ _ _ _ b s e

/-- The second (key) layer's rows as region 1 finds them: the linear layer of the arguments. -/
theorem v6_eq (c : Dev nD) :
    (V3 m ρ c main_v6 : S4x4096x256.Idx → EReal)
      = fun j => Cert.Attn.lin (m ((c : Thread nD τ).loc main_arg0)) (m ((c : Thread nD τ).loc main_arg3)) (m ((c : Thread nD τ).loc main_arg4)) (j 0) (j 1) (j 2) := by
  have hout : (V3 m ρ c main_v6 : S4x4096x256.Idx → EReal)
      = shapeCast S4x4096x256 (V2 m ρ c main_v4_1) shapeCasts_S16384x256_S4x4096x256 := by
    show StableHlo.after hostOps1 (W2 m ρ c) (Proc.devRef .tc main_v6) = _
    after_results
    rfl
  have hmid : (V2 m ρ c main_v4_1 : S16384x256.Idx → EReal)
      = projArr (V1 m ρ c main_v0) (V1 m ρ c main_v2) (V1 m ρ c main_arg4) :=
    (hF0 m ρ c 8).symm.trans (final8 (V1 m ρ) c)
  have hw : (V1 m ρ c main_v2 : S256x256.Idx → EReal)
      = transpose S256x256 [1, 0] (m ((c : Thread nD τ).loc main_arg3)) transposes_S256x256_S256x256_1_0 := by
    show StableHlo.after hostOps0 (W0 m ρ c) (Proc.devRef .tc main_v2) = _
    after_results
  have hb : (V1 m ρ c main_arg4 : S256.Idx → EReal) = m ((c : Thread nD τ).loc main_arg4) := by
    show StableHlo.after hostOps0 (W0 m ρ c) (Proc.devRef .tc main_arg4) = _
    after_results
  rw [hout, hmid, entry_tokens m ρ c, hw, hb]
  funext j
  obtain ⟨b, s, e, rfl⟩ : ∃ (b : Fin 4) (s : Fin 4096) (e : Fin 256), j = ix3 b s e := ⟨j 0, j 1, j 2, eq_ix3 j⟩
  exact lin_read _ _ _ _ _ _ b s e

/-- The third (value) layer's rows as region 1 finds them: the linear layer of the arguments. -/
theorem v7_eq (c : Dev nD) :
    (V3 m ρ c main_v7 : S4x4096x256.Idx → EReal)
      = fun j => Cert.Attn.lin (m ((c : Thread nD τ).loc main_arg0)) (m ((c : Thread nD τ).loc main_arg5)) (m ((c : Thread nD τ).loc main_arg6)) (j 0) (j 1) (j 2) := by
  have hout : (V3 m ρ c main_v7 : S4x4096x256.Idx → EReal)
      = shapeCast S4x4096x256 (V2 m ρ c main_v4_2) shapeCasts_S16384x256_S4x4096x256 := by
    show StableHlo.after hostOps1 (W2 m ρ c) (Proc.devRef .tc main_v7) = _
    after_results
    rfl
  have hmid : (V2 m ρ c main_v4_2 : S16384x256.Idx → EReal)
      = projArr (V1 m ρ c main_v0) (V1 m ρ c main_v3) (V1 m ρ c main_arg6) :=
    (hF0 m ρ c 9).symm.trans (final9 (V1 m ρ) c)
  have hw : (V1 m ρ c main_v3 : S256x256.Idx → EReal)
      = transpose S256x256 [1, 0] (m ((c : Thread nD τ).loc main_arg5)) transposes_S256x256_S256x256_1_0 := by
    show StableHlo.after hostOps0 (W0 m ρ c) (Proc.devRef .tc main_v3) = _
    after_results
  have hb : (V1 m ρ c main_arg6 : S256.Idx → EReal) = m ((c : Thread nD τ).loc main_arg6) := by
    show StableHlo.after hostOps0 (W0 m ρ c) (Proc.devRef .tc main_arg6) = _
    after_results
  rw [hout, hmid, entry_tokens m ρ c, hw, hb]
  funext j
  obtain ⟨b, s, e, rfl⟩ : ∃ (b : Fin 4) (s : Fin 4096) (e : Fin 256), j = ix3 b s e := ⟨j 0, j 1, j 2, eq_ix3 j⟩
  exact lin_read _ _ _ _ _ _ b s e

end Cert.KernelIdeal.ProjValue

end
-- ==== Proof.KernelValue.lean ====
/-
  The idealized kernel's result array is attention of its arguments.

  The second region writes, block by block, the rows `1024 qb + r` of batch `b`; each block is the body's final quotient
  of the running state over all the chunks of the batch's keys; the blocks it reads are rows of the three linear layers
  the first region left (reshaped to `[4, 4096, 256]`).  With finite arguments the layers are finite, so the online
  softmax's algebra applies and every block entry is the specification's entry; the blocks cover the array.
-/
import proofs.«159504_j10333691314194_2_alg».proof.Proof.FlashRun
import proofs.«159504_j10333691314194_2_alg».proof.Proof.FlashFinal
import proofs.«159504_j10333691314194_2_alg».proof.Proof.FlashBlocks
import proofs.«159504_j10333691314194_2_alg».proof.Proof.ProjValue

set_option maxRecDepth 16384

noncomputable section

open scoped BigOperators

namespace Cert.KernelIdeal.KernelValue

open Cert.KernelIdeal Cert.KernelIdeal.Gen Cert.KernelIdeal.Flash Cert.KernelIdeal.FlashFinal Cert.KernelIdeal.FlashBlocks
open Cert.Online Cert.Attn
open Idealize.ShloMosaic Idealize.ShloMosaic.TcCoe Idealize.ShloMosaic.ValueIdx Idealize.SL.Sem

/-- A linear layer of real arrays is real. -/
theorem lin_real (x : Tok) (w : Mat) (bias : Bias) (xr : (⟨3, ![4, 4096, 256]⟩ : Shape).Idx → ℝ)
    (wr : (⟨2, ![256, 256]⟩ : Shape).Idx → ℝ) (br : (⟨1, ![256]⟩ : Shape).Idx → ℝ)
    (hx : ∀ i, x i = (xr i : EReal)) (hw : ∀ i, w i = (wr i : EReal)) (hb : ∀ i, bias i = (br i : EReal))
    (b : Fin 4) (s : Fin 4096) (e : Fin 256) :
    lin x w bias b s e = (((∑ d : Fin 256, xr (ix3 b s d) * wr (ix2 e d)) + br (ix1 e) : ℝ) : EReal) := by
  unfold lin
  simp only [hx, hw, hb, ← EReal.coe_mul, ← coe_sum, ← EReal.coe_add]

variable (m : (ℓ : Loc nD τ sig) → Buf (Elt Ideal) ℓ) (ρ : Dev nD → PrngReg)

/-- With finite arguments, the result buffer's contents after the second region are the specification. -/
theorem result_eq (c : Dev nD)
    (f0 : ∀ i, ∃ x : ℝ, (m ((c : Thread nD τ).loc main_arg0) : S4x4096x256.Idx → EReal) i = (x : EReal))
    (f1 : ∀ i, ∃ x : ℝ, (m ((c : Thread nD τ).loc main_arg1) : S256x256.Idx → EReal) i = (x : EReal))
    (f2 : ∀ i, ∃ x : ℝ, (m ((c : Thread nD τ).loc main_arg2) : S256.Idx → EReal) i = (x : EReal))
    (f3 : ∀ i, ∃ x : ℝ, (m ((c : Thread nD τ).loc main_arg3) : S256x256.Idx → EReal) i = (x : EReal))
    (f4 : ∀ i, ∃ x : ℝ, (m ((c : Thread nD τ).loc main_arg4) : S256.Idx → EReal) i = (x : EReal))
    (f5 : ∀ i, ∃ x : ℝ, (m ((c : Thread nD τ).loc main_arg5) : S256x256.Idx → EReal) i = (x : EReal))
    (f6 : ∀ i, ∃ x : ℝ, (m ((c : Thread nD τ).loc main_arg6) : S256.Idx → EReal) i = (x : EReal)) :
    (W4 (F := Ideal) m ρ c (Proc.devRef .tc main_v8) : S4x4096x256.Idx → EReal)
      = attention (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  choose xr hx using f0
  choose wqr hwq using f1
  choose bqr hbq using f2
  choose wkr hwk using f3
  choose bkr hbk using f4
  choose wvr hwv using f5
  choose bvr hbv using f6
  refine (W4_arr m ρ c 3).trans (arr_eq_of_blocks (V3 m ρ) c _ fun t r d => ?_)
  unfold outsAt1
  rw [out_eq]
  exact block_entry
    (lin (m ((c : Thread nD τ).loc main_arg0)) (m ((c : Thread nD τ).loc main_arg1)) (m ((c : Thread nD τ).loc main_arg2)))
    (lin (m ((c : Thread nD τ).loc main_arg0)) (m ((c : Thread nD τ).loc main_arg3)) (m ((c : Thread nD τ).loc main_arg4)))
    (lin (m ((c : Thread nD τ).loc main_arg0)) (m ((c : Thread nD τ).loc main_arg5)) (m ((c : Thread nD τ).loc main_arg6)))
    _ _ _
    (lin_real _ _ _ xr wqr bqr hx hwq hbq) (lin_real _ _ _ xr wkr bkr hx hwk hbk) (lin_real _ _ _ xr wvr bvr hx hwv hbv)
    (batchOf t) (qblockOf t) _ _ _
    (fun r e => (q_block (V3 m ρ) c t r e).trans (congrFun (ProjValue.v5_eq m ρ c) _))
    (fun key e => (k_block (V3 m ρ) c t key e).trans (congrFun (ProjValue.v6_eq m ρ c) _))
    (fun key e => (v_block (V3 m ρ) c t key e).trans (congrFun (ProjValue.v7_eq m ρ c) _))
    (0 : Fin 1) r d

end Cert.KernelIdeal.KernelValue

end
-- ==== Proof.RefValue.lean ====
/-
  The reference program's result is the attention function of the specification.

  The reference computes three linear layers (a contraction over the feature axis plus a broadcast bias), the scores
  (a contraction of queries against keys, times the scale 1/sqrt 256 = 1/16), a softmax over the key axis in two
  passes (row maximum from -∞, exponentials of the shifted scores, their row sum from 0, the quotient) and the
  contraction of the weights against the value rows.  Each stage is read at an index and identified with the
  corresponding function of the specification: lin, scale, score, rowMax, softmaxOut.
-/
import proofs.«159504_j10333691314194_2_alg».proof.Proof.Gen.ReferenceIdeal.Read
import proofs.«159504_j10333691314194_2_alg».proof.Proof.Spec

noncomputable section

open scoped BigOperators

namespace Cert.RefBridge

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.Attn

/-- The argument arrays' types: tokens [4, 4096, 256], a weight matrix [256, 256], a bias [256]. -/
abbrev TokC := (⟨S4x4096x256, .f32⟩ : BufTy).Contents (Elt Ideal)
abbrev MatC := (⟨S256x256, .f32⟩ : BufTy).Contents (Elt Ideal)
abbrev BiasC := (⟨S256, .f32⟩ : BufTy).Contents (Elt Ideal)

/-! ## The linear layers -/

/-- A linear layer of the reference at an index: the contraction over the feature axis plus the bias of the output
    feature. -/
theorem lin_v3 (x : TokC) (w : MatC) (b : BiasC) (i : S4x4096x256.Idx) :
    val_main_v3 (F := Ideal) x w b i = lin x w b (i 0) (i 1) (i 2) := by
  have e1 : ∀ k : Fin 256, lidx_main_v0 i k = ix3 (i 0) (i 1) k := fun k =>
    funext fun a => by match a with | ⟨0, _⟩ => rfl | ⟨1, _⟩ => rfl | ⟨2, _⟩ => rfl
  have e2 : ∀ k : Fin 256, ridx_main_v0 i k = ix2 (i 2) k := fun k =>
    funext fun a => by match a with | ⟨0, _⟩ => rfl | ⟨1, _⟩ => rfl
  have e3 : idx_main_v1 (idx_main_v2 i) = ix1 (i 2) :=
    funext fun a => by match a with | ⟨0, _⟩ => rfl
  rw [val_main_v3_apply, val_main_v0_apply, val_main_v2_apply, val_main_v1_apply, Ideal.addf_def]
  simp only [e1, e2, e3]
  rfl

theorem lin_v7 (x : TokC) (w : MatC) (b : BiasC) (i : S4x4096x256.Idx) :
    val_main_v7 (F := Ideal) x w b i = lin x w b (i 0) (i 1) (i 2) := lin_v3 x w b i

theorem lin_v11 (x : TokC) (w : MatC) (b : BiasC) (i : S4x4096x256.Idx) :
    val_main_v11 (F := Ideal) x w b i = lin x w b (i 0) (i 1) (i 2) := lin_v3 x w b i

/-! ## The scale -/

/-- The words 1.0, 256.0 and 1/16 as extended reals. -/
theorem word_one : Ideal.ofBits .f32 0x3F800000#32 = ((1 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_sixteenth : Ideal.ofBits .f32 0x3D800000#32 = (((1 : ℝ) / 16 : ℝ) : EReal) := by
  simp [Ideal.ofBits, Ideal.ieee, -EReal.coe_mul]; norm_num

/-- The reference's scale 1 / sqrt 256 is the word 1/16. -/
theorem scale_v13 (j : S_.Idx) : val_main_v13 (F := Ideal) j = scale := by
  rw [val_main_v13_apply, val_main_cst_0_apply, val_main_v12_apply, val_main_cst_apply]
  simp only [Ideal.ofBits_def, Ideal.hostUnary_sqrt_def, Ideal.hostDivf_def]
  unfold scale
  rw [word_one, word_256, word_sixteenth, Ideal.sqrt_coe, if_neg (by norm_num)]
  have h16 : Real.sqrt 256 = 16 := by
    rw [show (256 : ℝ) = 16 ^ 2 by norm_num]; exact Real.sqrt_sq (by norm_num)
  rw [h16, Ideal.div_coe (by norm_num)]
  rw [← EReal.coe_mul]; norm_num

/-! ## The scores -/

/-- A score of the reference at an index: the contraction of the query row against the key row, times the scale. -/
theorem score_v16 (x : TokC) (wq : MatC) (bq : BiasC) (wk : MatC) (bk : BiasC) (i : S4x4096x4096.Idx) :
    val_main_v16 (F := Ideal) x wq bq wk bk i = score (lin x wq bq) (lin x wk bk) (i 0) (i 1) (i 2) := by
  rw [val_main_v16_apply, val_main_v14_apply, val_main_v15_apply, scale_v13, Ideal.mulf_def]
  unfold score
  refine congrArg (· * scale) (Finset.sum_congr rfl fun k _ => ?_)
  rw [lin_v3, lin_v7]
  rfl

/-! ## The row maximum -/

/-- The word of -∞. -/
theorem word_neg_inf : Ideal.ofBits .f32 0xFF800000#32 = (⊥ : EReal) := by
  simp [Ideal.ofBits, Ideal.ieee]

/-- The reduction over the key axis drops axis 2 of [4, 4096, 4096]. -/
theorem reduces_keys : S4x4096x4096.Reduces [2] S4x4096 := by decide

/-- The row (b, q) with key k put back is the index (b, q, k). -/
theorem lift_keys (j : S4x4096.Idx) (k : Fin 4096) :
    reduces_keys.lift j k = ix3 (j 0) (j 1) k :=
  funext fun a => Fin.ext (by match a with | ⟨0, _⟩ => rfl | ⟨1, _⟩ => rfl | ⟨2, _⟩ => rfl)

/-- The reference's row maximum: the maximum of -∞ and the fold of the row's scores from -∞. -/
theorem rowMax_v19 (x : TokC) (wq : MatC) (bq : BiasC) (wk : MatC) (bk : BiasC) (j : S4x4096.Idx) :
    val_main_v19 (F := Ideal) x wq bq wk bk j = rowMax (score (lin x wq bq) (lin x wk bk) (j 0) (j 1)) := by
  rw [val_main_v19_apply, val_main_v18_apply, val_main_cst_2_apply, Ideal.maximumf_def, Ideal.ofBits_def, word_neg_inf]
  unfold val_main_v17
  rw [Host.reduce_eq_fold_single FloatOps.maximumf _ _ reducesTo_S4x4096x4096_S4x4096_d2 reduces_keys h_S_,
    val_main_cst_1_apply, Ideal.ofBits_def, word_neg_inf]
  unfold rowMax
  refine congrArg (max ⊥) ?_
  have hf : (val_main_v16 (F := Ideal) x wq bq wk bk ∘ reduces_keys.lift j)
      = fun k : Fin 4096 => score (lin x wq bq) (lin x wk bk) (j 0) (j 1) k :=
    funext fun k => (congrArg (val_main_v16 (F := Ideal) x wq bq wk bk) (lift_keys j k)).trans
      (score_v16 x wq bq wk bk (ix3 (j 0) (j 1) k))
  exact congrArg (fun f => Finset.fold max (⊥ : EReal) f (Finset.univ : Finset (Fin 4096))) hf

/-! ## The softmax weights -/

/-- An exponential of the reference at an index: the exponential of the score shifted by its row's maximum. -/
theorem exp_v23 (x : TokC) (wq : MatC) (bq : BiasC) (wk : MatC) (bk : BiasC) (i : S4x4096x4096.Idx) :
    val_main_v23 (F := Ideal) x wq bq wk bk i
      = Ideal.exp (score (lin x wq bq) (lin x wk bk) (i 0) (i 1) (i 2)
          - rowMax (score (lin x wq bq) (lin x wk bk) (i 0) (i 1))) := by
  rw [val_main_v23_apply, val_main_v22_apply, val_main_v21_apply, val_main_v20_apply, score_v16, rowMax_v19,
    Ideal.hostUnary_exp_def, Ideal.subf_def]
  rfl

/-- The row's total: 0 plus the sum over the keys of the exponentials. -/
theorem total_v24 (x : TokC) (wq : MatC) (bq : BiasC) (wk : MatC) (bk : BiasC) (j : S4x4096.Idx) :
    val_main_v24 (F := Ideal) x wq bq wk bk j
      = 0 + ∑ k : Fin 4096, Ideal.exp (score (lin x wq bq) (lin x wk bk) (j 0) (j 1) k
          - rowMax (score (lin x wq bq) (lin x wk bk) (j 0) (j 1))) := by
  rw [val_main_v24_apply, val_main_cst_3_apply, Ideal.ofBits_def, Ideal.ofBits_zero_f32]
  refine congrArg (0 + ·) (Finset.sum_congr rfl fun k _ => ?_)
  rw [exp_v23]
  rfl

/-- A softmax weight of the reference at an index: the exponential divided by its row's total. -/
theorem weight_v27 (x : TokC) (wq : MatC) (bq : BiasC) (wk : MatC) (bk : BiasC) (i : S4x4096x4096.Idx) :
    val_main_v27 (F := Ideal) x wq bq wk bk i
      = Ideal.div (Ideal.exp (score (lin x wq bq) (lin x wk bk) (i 0) (i 1) (i 2)
            - rowMax (score (lin x wq bq) (lin x wk bk) (i 0) (i 1))))
          (0 + ∑ k : Fin 4096, Ideal.exp (score (lin x wq bq) (lin x wk bk) (i 0) (i 1) k
            - rowMax (score (lin x wq bq) (lin x wk bk) (i 0) (i 1)))) := by
  rw [val_main_v27_apply, val_main_v26_apply, val_main_v25_apply, exp_v23, total_v24, Ideal.hostDivf_def]
  rfl

/-! ## The result -/

/-- The reference's result is the attention function of the argument arrays. -/
theorem ref_eq (x : (⟨S4x4096x256, .f32⟩ : BufTy).Contents (Elt Ideal))
    (wq : (⟨S256x256, .f32⟩ : BufTy).Contents (Elt Ideal)) (bq : (⟨S256, .f32⟩ : BufTy).Contents (Elt Ideal))
    (wk : (⟨S256x256, .f32⟩ : BufTy).Contents (Elt Ideal)) (bk : (⟨S256, .f32⟩ : BufTy).Contents (Elt Ideal))
    (wv : (⟨S256x256, .f32⟩ : BufTy).Contents (Elt Ideal)) (bv : (⟨S256, .f32⟩ : BufTy).Contents (Elt Ideal)) :
    val_main_v28 (F := Ideal) x wq bq wk bk wv bv = attention x wq bq wk bk wv bv := by
  funext i
  rw [val_main_v28_apply]
  unfold attention softmaxOut
  refine Finset.sum_congr rfl fun k _ => ?_
  rw [weight_v27, lin_v11]
  rfl

/-- The same for the term the reference's run states: the result buffer after the run is the attention function of
    the argument buffers at launch. -/
theorem res_eq (m : (ℓ : Loc nD τ sig) → Buf (Elt Ideal) ℓ) (c : Dev nD) :
    Cert.ReferenceIdeal.Value.res_main_v28 (F := Ideal) m c
      = attention (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [val_main_v28_eq, ref_eq]

end Cert.RefBridge

end
-- ==== Proof.Finite.lean ====
/-
  Every entry of the seven argument arrays is a real number.

  The precondition says that, for each argument array v, the conjunction over all indices of |v i| < +∞ is true, and
  joins the seven by "and".  On the extended reals |x| = max x (-x) is +∞ exactly at the two infinities, so each entry
  is the image of a real.
-/
import proofs.«159504_j10333691314194_2_alg».proof.Defs
import proofs.«159504_j10333691314194_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.KernelIdeal.Finite

open Idealize.ShloMosaic Idealize.ShloMosaic.TcCoe Idealize.SL.Sem
open Cert.KernelIdeal

/-- The rank-0 shape has one index. -/
instance : Subsingleton Cert.Pre_finite_inputs.S_.Idx := ⟨fun a b => funext fun d => d.elim0⟩

/-- The word of +∞. -/
theorem word_pos_inf : Ideal.ofBits .f32 0x7F800000#32 = (⊤ : EReal) := by
  simp [Ideal.ofBits, Ideal.ieee]

/-- An extended real whose absolute value is below +∞ is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- ONE ARRAY: if the conjunction over every index of |v i| < +∞ came out true, every entry of v is a real. -/
theorem finite_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf v) (broadcastInDim s ![] hb (constant (F := Ideal) Cert.Pre_finite_inputs.S_ .f32 0x7F800000#32)))
        (constantI Cert.Pre_finite_inputs.S_ 1 1#1) hr hu j = 1#1) :
    ∀ i : s.Idx, ∃ r : ℝ, (v i : EReal) = (r : EReal) := by
  intro i
  have h := Host.reduce_andi_all _ _ hr hu j e i
  have hb' : broadcastInDim s ![] hb (constant (F := Ideal) Cert.Pre_finite_inputs.S_ .f32 0x7F800000#32) i = (⊤ : EReal) := by
    rw [broadcastInDim_apply _ hb _ i (fun a => a.elim0) (fun a => a.elim0)]
    exact word_pos_inf
  have h' : Ideal.cmp .olt (max (v i) (-(v i))) (broadcastInDim s ![] hb (constant (F := Ideal) Cert.Pre_finite_inputs.S_ .f32 0x7F800000#32) i) = 1#1 := h
  rw [hb'] at h'
  exact real_of_abs_lt_top (v i) h'

/-- THE SEVEN ARGUMENT ARRAYS: under the precondition every entry of each of them is a real. -/
theorem finite_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i : S4x4096x256.Idx, ∃ x : ℝ, (m ((c.tc : Thread nD τ).loc main_arg0) : S4x4096x256.Idx → EReal) i = (x : EReal))
    ∧ (∀ i : S256x256.Idx, ∃ x : ℝ, (m ((c.tc : Thread nD τ).loc main_arg1) : S256x256.Idx → EReal) i = (x : EReal))
    ∧ (∀ i : S256.Idx, ∃ x : ℝ, (m ((c.tc : Thread nD τ).loc main_arg2) : S256.Idx → EReal) i = (x : EReal))
    ∧ (∀ i : S256x256.Idx, ∃ x : ℝ, (m ((c.tc : Thread nD τ).loc main_arg3) : S256x256.Idx → EReal) i = (x : EReal))
    ∧ (∀ i : S256.Idx, ∃ x : ℝ, (m ((c.tc : Thread nD τ).loc main_arg4) : S256.Idx → EReal) i = (x : EReal))
    ∧ (∀ i : S256x256.Idx, ∃ x : ℝ, (m ((c.tc : Thread nD τ).loc main_arg5) : S256x256.Idx → EReal) i = (x : EReal))
    ∧ (∀ i : S256.Idx, ∃ x : ℝ, (m ((c.tc : Thread nD τ).loc main_arg6) : S256.Idx → EReal) i = (x : EReal)) := by
  have h := congrFun (hpre c) ValueIdx.ix0
  unfold Cert.Pre_finite_inputs.fn Cert.Pre_finite_inputs.fn_part1 at h
  dsimp only at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨finite_of_all _ _ _ _ _ h0, finite_of_all _ _ _ _ _ h1, finite_of_all _ _ _ _ _ h2, finite_of_all _ _ _ _ _ h3,
    finite_of_all _ _ _ _ _ h4, finite_of_all _ _ _ _ _ h5, finite_of_all _ _ _ _ _ h6⟩

end Cert.KernelIdeal.Finite

end
-- ==== Proof.lean ====
/-
  One-head self-attention: the kernel against its reference, on the extended reals.

  The kernel computes the three linear layers `q, k, v` of the tokens in one tiled pass, then attends with an online
  softmax: for each block of 1024 queries it meets the batch's 4096 keys in eight chunks, keeping a running maximum, a
  running total and a running weighted total, and finally divides.  The reference computes the scores of all the keys,
  subtracts each row's maximum, exponentiates, divides by the row's total and multiplies into `v`.  With finite
  arguments both are the function `Cert.Attn.attention`: a change of float format is the identity; the kernel's scale
  `1/16` is the reference's `1 / sqrt 256`; rescaling a running total by `exp (m - m')` moves its terms to the new
  maximum; and a weighted total divided by the total is the sum of the normalised weights.

  The modules: Spec (the function), RefValue (the reference's term is the function), ProjPay / ProjRead / ProjBlock /
  ProjValue (the first region leaves the three linear layers), FlashState / FlashRun (the second region's body as a
  recursion on its running state), FlashRead (that state's arithmetic entry by entry), Online / OnlineChunks (the online
  softmax's algebra), FlashInv / FlashFinal (the state is the online softmax; one block is the function's rows),
  FlashBlocks (the blocks cover the result), Finite (the precondition makes every argument entry real), KernelValue (the
  kernel's result array is the function), RunNamed (the kernel's run with its result named).  The frames of the two
  printed kernels are the generated ones; the reference's frame is its run with the result dropped; the idealization
  rewrote nothing, so `preserves` is `True`.
-/
import proofs.«159504_j10333691314194_2_alg».proof.Defs
import proofs.«159504_j10333691314194_2_alg».proof.Proof.Gen.Kernel
import proofs.«159504_j10333691314194_2_alg».proof.Proof.Gen.Kernel.Frame
import proofs.«159504_j10333691314194_2_alg».proof.Proof.Gen.KernelIdeal
import proofs.«159504_j10333691314194_2_alg».proof.Proof.Gen.KernelIdeal.Frame
import proofs.«159504_j10333691314194_2_alg».proof.Proof.Gen.ReferenceIdeal
import proofs.«159504_j10333691314194_2_alg».proof.Proof.Gen.ReferenceIdeal.Run
import proofs.«159504_j10333691314194_2_alg».proof.Proof.Gen.ReferenceIdeal.Read
import proofs.«159504_j10333691314194_2_alg».proof.Proof.Gen.Pre_finite_inputs
import proofs.«159504_j10333691314194_2_alg».proof.Proof.RunNamed
import proofs.«159504_j10333691314194_2_alg».proof.Proof.KernelValue
import proofs.«159504_j10333691314194_2_alg».proof.Proof.RefValue
import proofs.«159504_j10333691314194_2_alg».proof.Proof.Finite
import Idealize.ShloMosaic.Adequacy
import Idealize.ShloMosaic.Init

noncomputable section

namespace Cert.Proof

open Idealize.ShloMosaic Idealize.SL.Sem

/-- From memories agreeing on the arguments both idealized programs end with the result array at
    `Cert.Attn.attention` of the arguments: the kernel by its named run and its value, the reference by its generated
    run and its value. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.Attn.attention
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨?_, (h c).2⟩)
      (Cert.KernelIdeal.Named.run_named (F := Ideal) m ρ)
    obtain ⟨f0, f1, f2, f3, f4, f5, f6⟩ := Cert.KernelIdeal.Finite.finite_of_pre m hpre c
    exact ((h c).1).trans (Cert.KernelIdeal.KernelValue.result_eq m ρ c f0 f1 f2 f3 f4 f5 f6)
  · refine (θ_run Cert.ReferenceIdeal.defs _ _).mono (fun r h c => ⟨?_, (h c).2⟩)
      (Cert.ReferenceIdeal.Value.run (F := Ideal) m' ρ')
    rw [(h c).1, Cert.RefBridge.res_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
